-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S512x2048 .f32 .bf16
  ∧ IdealRules.truncf_extf.Statement Cert.KernelIdeal.S512x2048 .f32 .bf16
  ∧ IdealRules.truncf_extf.Statement Cert.KernelIdeal.S512x2048 .f32 .bf16
  ∧ IdealRules.truncf_extf.Statement Cert.KernelIdeal.S512x2048 .f32 .bf16
  ∧ IdealRules.truncf_extf.Statement Cert.KernelIdeal.S512x2048 .f32 .bf16
  ∧ IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S2048x2048 .f32) (main_arg6 : FVec F S2048x2048 .f32) (main_arg7 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S2048x2048 .f32) (main_arg1 : FVec F S2048x2048 .f32) (main_arg2 : FVec F S2048x2048 .f32) (main_arg3 : FVec F S2048x2048 .f32) (main_arg4 : FVec F S2048x2048 .f32) (main_arg5 : FVec F S2048x2048 .f32) (main_arg6 : FVec F S2048x2048 .f32) (main_arg7 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S256x2048 : Shape := ⟨2, ![256, 2048]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩

abbrev nBuf : Space → Nat
  | .hbm => 16
  | .vmem => 39
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1024x2048, .f32⟩
  | .hbm, ⟨9, _⟩ => ⟨S2048x2048, .bf16⟩
  | .hbm, ⟨10, _⟩ => ⟨S1024x2048, .bf16⟩
  | .hbm, ⟨11, _⟩ => ⟨S1024x2048, .bf16⟩
  | .hbm, ⟨12, _⟩ => ⟨S2048x1024, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S512x2048, .bf16⟩
  | .local _ .vmem, ⟨4, _⟩ => ⟨S512x2048, .bf16⟩
  | .local _ .vmem, ⟨5, _⟩ => ⟨S256x2048, .f32⟩
  | .local _ .vmem, ⟨6, _⟩ => ⟨S256x2048, .f32⟩
  | .local _ .vmem, ⟨7, _⟩ => ⟨S2048x2048, .f32⟩
  | .local _ .vmem, ⟨8, _⟩ => ⟨S2048x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x1024, .bf16⟩
  | .local _ .vmem, ⟨17, _⟩ => ⟨S1024x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x2048, .bf16⟩
  | .local _ .vmem, ⟨21, _⟩ => ⟨S2048x2048, .f32⟩
  | .local _ .vmem, ⟨22, _⟩ => ⟨S512x2048, .f32⟩
  | .local _ .vmem, ⟨23, _⟩ => ⟨S512x2048, .f32⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | .local _ .vmem, ⟨27, _⟩ => ⟨S512x2048, .bf16⟩
  | .local _ .vmem, ⟨28, _⟩ => ⟨S2048x2048, .f32⟩
  | .local _ .vmem, ⟨29, _⟩ => ⟨S2048x2048, .f32⟩
  | .local _ .vmem, ⟨30, _⟩ => ⟨S512x2048, .bf16⟩
  | .local _ .vmem, ⟨31, _⟩ => ⟨S512x2048, .bf16⟩
  | .local _ .vmem, ⟨32, _⟩ => ⟨S1024x2048, .bf16⟩
  | .local _ .vmem, ⟨33, _⟩ => ⟨S1024x2048, .bf16⟩
  | .local _ .vmem, ⟨34, _⟩ => ⟨S2048x2048, .f32⟩
  | .local _ .vmem, ⟨35, _⟩ => ⟨S1024x2048, .bf16⟩
  | .local _ .vmem, ⟨36, _⟩ => ⟨S1024x2048, .bf16⟩
  | .local _ .vmem, ⟨37, _⟩ => ⟨S1024x2048, .bf16⟩
  | .local _ .vmem, ⟨38, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2_0 : Ref sig .tc := ⟨.hbm, 10, rfl⟩
abbrev main_call0_v2_1 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc5_sem3_0 : DmaSem sig := 37
abbrev cc5_sem3_1 : DmaSem sig := 38

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x2048 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2048x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1024x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1024x2048 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2048x2048_S1024x2048_0_0 : S2048x2048.Slices ![0, 0] S1024x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  packedbf16_S512x2048_S512x2048_0_0 : (Rect.unit (s := S512x2048) ![0, 0] S512x2048.size inb_S512x2048_S512x2048_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x1024_S1024 : S1024x1024.Reduces [1] S1024
  shapeCasts_S1024_S1024x1 : S1024.ShapeCasts S1024x1
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x2048_S512x2048 : S512x2048.ShapeCasts S512x2048
  packedbf16_S1024x2048_S1024x2048_0_0 : (Rect.unit (s := S1024x2048) ![0, 0] S1024x2048.size inb_S1024x2048_S1024x2048_0_0).PackedRows (EltTy.packing .bf16)
  dot_S512x2048_S2048x2048_S512x2048_1_0_0_1_n_n_wf : DotDims.WF S512x2048 S2048x2048 S512x2048 [1] [0] [0] [1] [] []
  dot_S256x2048_S2048x2048_S256x2048_1_0_0_1_n_n_wf : DotDims.WF S256x2048 S2048x2048 S256x2048 [1] [0] [0] [1] [] []
  dot_S1024x2048_S1024x2048_S1024x1024_1_1_0_0_n_n_wf : DotDims.WF S1024x2048 S1024x2048 S1024x1024 [1] [1] [0] [0] [] []
  dot_S512x1024_S1024x2048_S512x2048_1_0_0_1_n_n_wf : DotDims.WF S512x1024 S1024x2048 S512x2048 [1] [0] [0] [1] [] []
  dot_S1024x2048_S2048x2048_S1024x2048_1_0_0_1_n_n_wf : DotDims.WF S1024x2048 S2048x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .bf16 = 32 ∨ (Rect.block (s := S2048x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S1024x2048.size a
  hwx1_0 : ∀ i : grid1.Coords, EltTy.bits .f32 = 32 ∨ (Rect.block (s := S1024x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .f32 = 32 ∨ (Rect.block (s := S2048x2048) S2048x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .f32 = 32 ∨ (Rect.block (s := S2048x2048) S2048x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S1024x2048.size a
  hwx1_3 : ∀ i : grid1.Coords, EltTy.bits .bf16 = 32 ∨ (Rect.block (s := S1024x2048) S256x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S1024x2048.size a
  hwx1_4 : ∀ i : grid1.Coords, EltTy.bits .bf16 = 32 ∨ (Rect.block (s := S1024x2048) S256x2048.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S2048x2048.size a
  hwx2_0 : ∀ i : grid2.Coords, EltTy.bits .bf16 = 32 ∨ (Rect.block (s := S2048x2048) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x2048.size a
  hwx2_1 : ∀ i : grid2.Coords, EltTy.bits .bf16 = 32 ∨ (Rect.block (s := S1024x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S2048x1024.size a
  hwx2_2 : ∀ i : grid2.Coords, EltTy.bits .bf16 = 32 ∨ (Rect.block (s := S2048x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S2048x1024.size a
  hwx3_0 : ∀ i : grid3.Coords, EltTy.bits .bf16 = 32 ∨ (Rect.block (s := S2048x1024) S512x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S1024x2048.size a
  hwx3_1 : ∀ i : grid3.Coords, EltTy.bits .bf16 = 32 ∨ (Rect.block (s := S1024x2048) S1024x2048.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2048x2048.size a ≤ S2048x2048.size a
  hwx3_2 : ∀ i : grid3.Coords, EltTy.bits .f32 = 32 ∨ (Rect.block (s := S2048x2048) S2048x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x2048.size a ≤ S2048x2048.size a
  hwx3_3 : ∀ i : grid3.Coords, EltTy.bits .f32 = 32 ∨ (Rect.block (s := S2048x2048) S512x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x2048.size a ≤ S2048x2048.size a
  hwx3_4 : ∀ i : grid3.Coords, EltTy.bits .bf16 = 32 ∨ (Rect.block (s := S2048x2048) S512x2048.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S2048x2048.size a
  hwx4_0 : ∀ i : grid4.Coords, EltTy.bits .bf16 = 32 ∨ (Rect.block (s := S2048x2048) S512x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x2048.size a
  hwx4_1 : ∀ i : grid4.Coords, EltTy.bits .f32 = 32 ∨ (Rect.block (s := S2048x2048) S2048x2048.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2048x2048.size a ≤ S2048x2048.size a
  hwx4_2 : ∀ i : grid4.Coords, EltTy.bits .f32 = 32 ∨ (Rect.block (s := S2048x2048) S2048x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S2048x2048.size a
  hwx4_3 : ∀ i : grid4.Coords, EltTy.bits .bf16 = 32 ∨ (Rect.block (s := S2048x2048) S512x2048.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S2048x2048.size a
  hwx5_0 : ∀ i : grid5.Coords, EltTy.bits .bf16 = 32 ∨ (Rect.block (s := S2048x2048) S1024x2048.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x2048.size a ≤ S2048x2048.size a
  hwx5_1 : ∀ i : grid5.Coords, EltTy.bits .f32 = 32 ∨ (Rect.block (s := S2048x2048) S2048x2048.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x2048.size a ≤ S2048x2048.size a
  hwx5_2 : ∀ i : grid5.Coords, EltTy.bits .bf16 = 32 ∨ (Rect.block (s := S2048x2048) S1024x2048.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x2048.size a ≤ S2048x2048.size a
  hwx5_3 : ∀ i : grid5.Coords, EltTy.bits .bf16 = 32 ∨ (Rect.block (s := S2048x2048) S1024x2048.size (cc5_transform_3 i) (hinb5_3 i)).WholeWords (EltTy.packing .bf16)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2_0) S256x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2_1) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v2_0) S1024x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v3) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v2_1) S1024x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S2048x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg0) S512x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_call0_v4) S512x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_call0_v4) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S2048x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S2048x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v5) S512x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_call0_v5) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S2048x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v4) S1024x2048.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v0) S1024x2048.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S2048x2048 : Shape := ⟨2, ![2048, 2048]⟩
abbrev S1024x2048 : Shape := ⟨2, ![1024, 2048]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩

abbrev nBuf : Space → Nat
  | .hbm => 126
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .bf16⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .bf16⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x2048, .f32⟩
  | .hbm, ⟨25, _⟩ => ⟨S2048x2048, .bf16⟩
  | .hbm, ⟨26, _⟩ => ⟨S1024x2048, .bf16⟩
  | .hbm, ⟨27, _⟩ => ⟨S2048x1024, .bf16⟩
  | .hbm, ⟨28, _⟩ => ⟨S2048x2048, .f32⟩
  | .hbm, ⟨29, _⟩ => ⟨S2048x1024, .f32⟩
  | .hbm, ⟨30, _⟩ => ⟨S2048x2048, .bf16⟩
  | .hbm, ⟨31, _⟩ => ⟨S2048x2048, .f32⟩
  | .hbm, ⟨32, _⟩ => ⟨S2048x1024, .bf16⟩
  | .hbm, ⟨33, _⟩ => ⟨S2048x1024, .f32⟩
  | .hbm, ⟨34, _⟩ => ⟨S2048x1024, .f32⟩
  | .hbm, ⟨35, _⟩ => ⟨S2048x1024, .bf16⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .bf16⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .bf16⟩
  | .hbm, ⟨57, _⟩ => ⟨S2048x1024, .f32⟩
  | .hbm, ⟨58, _⟩ => ⟨S1024x2048, .bf16⟩
  | .hbm, ⟨59, _⟩ => ⟨S1024x2048, .f32⟩
  | .hbm, ⟨60, _⟩ => ⟨S2048x1024, .bf16⟩
  | .hbm, ⟨61, _⟩ => ⟨S2048x1024, .f32⟩
  | .hbm, ⟨62, _⟩ => ⟨S1024x2048, .bf16⟩
  | .hbm, ⟨63, _⟩ => ⟨S1024x2048, .f32⟩
  | .hbm, ⟨64, _⟩ => ⟨S2048x2048, .f32⟩
  | .hbm, ⟨65, _⟩ => ⟨S2048x2048, .bf16⟩
  | .hbm, ⟨66, _⟩ => ⟨S2048x2048, .f32⟩
  | .hbm, ⟨67, _⟩ => ⟨S2048x2048, .bf16⟩
  | .hbm, ⟨68, _⟩ => ⟨S2048x2048, .f32⟩
  | .hbm, ⟨69, _⟩ => ⟨S2048x2048, .bf16⟩
  | .hbm, ⟨70, _⟩ => ⟨S2048x2048, .f32⟩
  | .hbm, ⟨71, _⟩ => ⟨S2048x2048, .f32⟩
  | .hbm, ⟨72, _⟩ => ⟨S2048x2048, .bf16⟩
  | .hbm, ⟨73, _⟩ => ⟨S2048x2048, .bf16⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .bf16⟩
  | .hbm, ⟨78, _⟩ => ⟨S2048x2048, .f32⟩
  | .hbm, ⟨79, _⟩ => ⟨S2048x2048, .bf16⟩
  | .hbm, ⟨80, _⟩ => ⟨S2048x2048, .f32⟩
  | .hbm, ⟨81, _⟩ => ⟨S2048x2048, .bf16⟩
  | .hbm, ⟨82, _⟩ => ⟨S2048x2048, .f32⟩
  | .hbm, ⟨83, _⟩ => ⟨S2048x2048, .f32⟩
  | .hbm, ⟨84, _⟩ => ⟨S2048x2048, .bf16⟩
  | .hbm, ⟨85, _⟩ => ⟨S2048x2048, .f32⟩
  | .hbm, ⟨86, _⟩ => ⟨S2048x2048, .bf16⟩
  | .hbm, ⟨87, _⟩ => ⟨S2048x2048, .f32⟩
  | .hbm, ⟨88, _⟩ => ⟨S2048x2048, .bf16⟩
  | .hbm, ⟨89, _⟩ => ⟨S2048x2048, .f32⟩
  | .hbm, ⟨90, _⟩ => ⟨S2048x2048, .f32⟩
  | .hbm, ⟨91, _⟩ => ⟨S2048x2048, .bf16⟩
  | .hbm, ⟨92, _⟩ => ⟨S2048x2048, .f32⟩
  | .hbm, ⟨93, _⟩ => ⟨S2048x2048, .f32⟩
  | .hbm, ⟨94, _⟩ => ⟨S2048x2048, .f32⟩
  | .hbm, ⟨95, _⟩ => ⟨S_, .f32⟩
  | .hbm, ⟨96, _⟩ => ⟨S2048x2048, .f32⟩
  | .hbm, ⟨97, _⟩ => ⟨S2048x2048, .f32⟩
  | .hbm, ⟨98, _⟩ => ⟨S2048x2048, .f32⟩
  | .hbm, ⟨99, _⟩ => ⟨S_, .f32⟩
  | .hbm, ⟨100, _⟩ => ⟨S2048x2048, .f32⟩
  | .hbm, ⟨101, _⟩ => ⟨S2048x2048, .f32⟩
  | .hbm, ⟨102, _⟩ => ⟨S2048x2048, .f32⟩
  | .hbm, ⟨103, _⟩ => ⟨S_, .f32⟩
  | .hbm, ⟨104, _⟩ => ⟨S2048x2048, .f32⟩
  | .hbm, ⟨105, _⟩ => ⟨S2048x2048, .f32⟩
  | .hbm, ⟨106, _⟩ => ⟨S_, .f32⟩
  | .hbm, ⟨107, _⟩ => ⟨S2048x2048, .f32⟩
  | .hbm, ⟨108, _⟩ => ⟨S2048x2048, .f32⟩
  | .hbm, ⟨109, _⟩ => ⟨S2048x2048, .f32⟩
  | .hbm, ⟨110, _⟩ => ⟨S2048x2048, .bf16⟩
  | .hbm, ⟨111, _⟩ => ⟨S2048x2048, .f32⟩
  | .hbm, ⟨112, _⟩ => ⟨S2048x2048, .f32⟩
  | .hbm, ⟨113, _⟩ => ⟨S2048x2048, .f32⟩
  | .hbm, ⟨114, _⟩ => ⟨S2048x2048, .bf16⟩
  | .hbm, ⟨115, _⟩ => ⟨S2048x2048, .f32⟩
  | .hbm, ⟨116, _⟩ => ⟨S2048x2048, .bf16⟩
  | .hbm, ⟨117, _⟩ => ⟨S2048x2048, .f32⟩
  | .hbm, ⟨118, _⟩ => ⟨S2048x2048, .bf16⟩
  | .hbm, ⟨119, _⟩ => ⟨S2048x2048, .f32⟩
  | .hbm, ⟨120, _⟩ => ⟨S2048x2048, .f32⟩
  | .hbm, ⟨121, _⟩ => ⟨S2048x2048, .bf16⟩
  | .hbm, ⟨122, _⟩ => ⟨S2048x2048, .f32⟩
  | .hbm, ⟨123, _⟩ => ⟨S2048x2048, .f32⟩
  | .hbm, ⟨124, _⟩ => ⟨S2048x2048, .f32⟩
  | .hbm, ⟨125, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_0 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_cst_3 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_4 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_5 : Ref sig .tc := ⟨.hbm, 103, rfl⟩
abbrev main_v89 : Ref sig .tc := ⟨.hbm, 104, rfl⟩
abbrev main_v90 : Ref sig .tc := ⟨.hbm, 105, rfl⟩
abbrev main_cst_6 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩

abbrev nD : Nat := 1
abbrev τ : Topo := Topo.v7x

variable {F : FTy → Type} [FloatOps F]

class Facts₀ : Prop where
  bitsLt_bf16_f32 : FTy.bits .bf16 < FTy.bits .f32
  slices_S2048x2048_S1024x2048_0_0 : S2048x2048.Slices ![0, 0] S1024x2048
  transposes_S1024x2048_S2048x1024_1_0 : S1024x2048.Transposes [1, 0] S2048x1024
  bcast_S_S2048x1024 : S_.BroadcastsInDim S2048x1024 (![] : Fin 0 → Fin S2048x1024.rank)
  reducesTo_S2048x1024_S2048_d1 : S2048x1024.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []
  dot_S2048x2048_S2048x1024_S2048x1024_1_0_0_1_n_n_wf : DotDims.WF S2048x2048 S2048x1024 S2048x1024 [1] [0] [0] [1] [] []
  dot_S2048x1024_S1024x2048_S2048x2048_1_0_0_1_n_n_wf : DotDims.WF S2048x1024 S1024x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf

class Facts : Prop extends Facts₀ where

variable [Facts]
-- ==== Proof.KernelRun.lean ====
/-
  The idealized kernel program's run with its RESULT named: @main is six kernel regions after one host slice; the
  buffer contents at the last boundary are the fold `W7` (each region's arrays at what its write-backs leave, every
  other buffer as the region found it), and every weakly fair execution ends with the result buffer and the eight
  arguments holding `W7`'s contents there — the arguments' being the launch contents. The launch over the seven
  segments is the one of the frame; here the last thread state is read at the result buffer as well.
-/
import proofs.«160021_j42142219108651_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v0) = W7 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Whole

end
-- ==== Proof.Chain.lean ====
/-
  What each kernel region finds in the buffers it reads. Between the launch and the return the buffer contents change
  only where a region writes back an output array (and where the one host operation before region 0 writes its slice);
  so the contents a region is entered with hold, at an argument, the launch contents, and at an intermediate array,
  what the region that produced it left there. Each lemma walks one buffer back through the boundaries: a region
  that does not touch the buffer leaves it, a region that only READS it through an input window leaves it too.
-/
import proofs.«160021_j42142219108651_2_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## After the host slice: the arguments as launched, the slice at the first 1024 rows of the hidden states -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans rfl

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans rfl

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans rfl

theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans rfl

theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans rfl

theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans rfl

theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans rfl

theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans rfl

theorem W1_v0 (c : Dev nD) :
    (W1 m ρ c (Proc.devRef .tc main_call0_v0) : S1024x2048.Idx → EReal)
      = extractStridedSlice S1024x2048 ![0, 0] (m ((c : Thread nD τ).loc main_arg0)) slices_S2048x2048_S1024x2048_0_0 := by
  show StableHlo.after hostOps0 (W0 m ρ c) (Proc.devRef .tc main_call0_v0) = _
  after_results
  rfl

/-! ## Region 0 (entered with V1): the hidden states and the query weight -/

theorem V1_arg0 (c : Dev nD) : V1 m ρ c main_arg0 = m ((c : Thread nD τ).loc main_arg0) := W1_main_arg0 m ρ c
theorem V1_arg1 (c : Dev nD) : V1 m ρ c main_arg1 = m ((c : Thread nD τ).loc main_arg1) := W1_main_arg1 m ρ c

/-! ## Region 1 (entered with V2): the slice, the key and value weights -/

theorem V2_v0 (c : Dev nD) : (V2 m ρ c main_call0_v0 : S1024x2048.Idx → EReal)
    = extractStridedSlice S1024x2048 ![0, 0] (m ((c : Thread nD τ).loc main_arg0)) slices_S2048x2048_S1024x2048_0_0 :=
  (W2_of_ne m ρ c main_call0_v0 (by decide)).trans (W1_v0 m ρ c)
theorem V2_arg2 (c : Dev nD) : V2 m ρ c main_arg2 = m ((c : Thread nD τ).loc main_arg2) :=
  (W2_of_ne m ρ c main_arg2 (by decide)).trans (W1_main_arg2 m ρ c)
theorem V2_arg3 (c : Dev nD) : V2 m ρ c main_arg3 = m ((c : Thread nD τ).loc main_arg3) :=
  (W2_of_ne m ρ c main_arg3 (by decide)).trans (W1_main_arg3 m ρ c)

/-! ## Region 2 (entered with V3): the queries region 0 left, the keys region 1 left -/

theorem V3_v1 (c : Dev nD) : V3 m ρ c main_call0_v1 = (dat0 (V1 m ρ) c).arrAt 2 cfg0.N :=
  (W3_of_ne m ρ c main_call0_v1 (by decide)).trans (W2_arr m ρ c 2)
theorem V3_v2_0 (c : Dev nD) : V3 m ρ c main_call0_v2_0 = (dat1 (V2 m ρ) c).arrAt 3 cfg1.N := W3_arr m ρ c 3

/-! ## Region 3 (entered with V4): the probabilities, the values, the output weight, the hidden states -/

theorem V4_v3 (c : Dev nD) : V4 m ρ c main_call0_v3 = (dat2 (V3 m ρ) c).arrAt 2 cfg2.N := W4_arr m ρ c 2
theorem V4_v2_1 (c : Dev nD) : V4 m ρ c main_call0_v2_1 = (dat1 (V2 m ρ) c).arrAt 4 cfg1.N :=
  (W4_of_ne m ρ c main_call0_v2_1 (by decide)).trans (W3_arr m ρ c 4)
theorem V4_arg4 (c : Dev nD) : V4 m ρ c main_arg4 = m ((c : Thread nD τ).loc main_arg4) :=
  (W4_of_ne m ρ c main_arg4 (by decide)).trans ((W3_of_ne m ρ c main_arg4 (by decide)).trans
    ((W2_of_ne m ρ c main_arg4 (by decide)).trans (W1_main_arg4 m ρ c)))
theorem V4_arg0 (c : Dev nD) : V4 m ρ c main_arg0 = m ((c : Thread nD τ).loc main_arg0) :=
  (W4_of_ne m ρ c main_arg0 (by decide)).trans ((W3_of_ne m ρ c main_arg0 (by decide)).trans
    (((W2_arr m ρ c 0).trans (((dat0 (V1 m ρ) c).arrAt_in 0 rfl _).trans (A_eq0 (V1 m ρ) c 0))).trans (W1_main_arg0 m ρ c)))

/-! ## Region 4 (entered with V5): the post-attention states, the gate and up weights -/

theorem V5_v4 (c : Dev nD) : V5 m ρ c main_call0_v4 = (dat3 (V4 m ρ) c).arrAt 4 cfg3.N := W5_arr m ρ c 4
theorem V5_arg5 (c : Dev nD) : V5 m ρ c main_arg5 = m ((c : Thread nD τ).loc main_arg5) :=
  (W5_of_ne m ρ c main_arg5 (by decide)).trans ((W4_of_ne m ρ c main_arg5 (by decide)).trans ((W3_of_ne m ρ c main_arg5 (by decide)).trans
    ((W2_of_ne m ρ c main_arg5 (by decide)).trans (W1_main_arg5 m ρ c))))
theorem V5_arg6 (c : Dev nD) : V5 m ρ c main_arg6 = m ((c : Thread nD τ).loc main_arg6) :=
  (W5_of_ne m ρ c main_arg6 (by decide)).trans ((W4_of_ne m ρ c main_arg6 (by decide)).trans ((W3_of_ne m ρ c main_arg6 (by decide)).trans
    ((W2_of_ne m ρ c main_arg6 (by decide)).trans (W1_main_arg6 m ρ c))))

/-! ## Region 5 (entered with V6): the gated activations, the down weight, the post-attention states -/

theorem V6_v5 (c : Dev nD) : V6 m ρ c main_call0_v5 = (dat4 (V5 m ρ) c).arrAt 3 cfg4.N := W6_arr m ρ c 3
theorem V6_v4 (c : Dev nD) : V6 m ρ c main_call0_v4 = (dat3 (V4 m ρ) c).arrAt 4 cfg3.N :=
  ((W6_arr m ρ c 0).trans (((dat4 (V5 m ρ) c).arrAt_in 0 rfl _).trans (A_eq4 (V5 m ρ) c 0))).trans (V5_v4 m ρ c)
theorem V6_arg7 (c : Dev nD) : V6 m ρ c main_arg7 = m ((c : Thread nD τ).loc main_arg7) :=
  (W6_of_ne m ρ c main_arg7 (by decide)).trans ((W5_of_ne m ρ c main_arg7 (by decide)).trans ((W4_of_ne m ρ c main_arg7 (by decide)).trans
    ((W3_of_ne m ρ c main_arg7 (by decide)).trans ((W2_of_ne m ρ c main_arg7 (by decide)).trans (W1_main_arg7 m ρ c)))))

/-! ## The result buffer at the return: what region 5 left -/

theorem W7_v0 (c : Dev nD) : W7 m ρ c (Proc.devRef .tc main_v0) = (dat5 (V6 m ρ) c).arrAt 3 cfg5.N := W7_arr m ρ c 3

end Cert.KernelIdeal.Chain

end
-- ==== Proof.Spec.lean ====
/-
  One transformer decoder block over the extended reals, written row by row.

  Matrices are functions of a two-coordinate index into the extended reals. Every stage of the block is ROW-LOCAL in
  the activations: row p of a stage's result depends on row p of the activation matrices it takes and on the whole of
  the weight (or key / value) matrices. Each stage is therefore stated for ANY number of rows `a`: the same
  definition reads a band of rows and the whole matrix, and a band of the whole matrix's result is the result of the
  band (`row_*` below), which is all that a row-banded evaluation uses.

  The block, for hidden states H and weights Wq Wk Wv Wo Wg Wu Wd (all 2048 x 2048), with n = 1024 attention keys:
    Q = H Wq,   K = (top n rows of H) Wk,   V = (top n rows of H) Wv
    P(r, ·) = softmax over the n keys of  s · (Q(r, ·) · K(a, ·))      (a product of a row of Q with a row of K)
    X = (P V) Wo + H
    G = gelu(X Wg) ⊙ (X Wu)          gelu x = x · (½ · (1 + tanh(c₂ · (x + c₁ · x³))))
    out = G Wd + X
  The constants (the score scale s, −∞, c₁, c₂, 1, ½) are parameters: no stage depends on their values.
-/
import Idealize.ShloMosaic.Lib.ValueIdx
import Idealize.ShloMosaic.PureOps.Ideal

noncomputable section

namespace Cert.Decoder

open Idealize.ShloMosaic Idealize.ShloMosaic.ValueIdx

/-- An `a × b` matrix of extended reals. -/
abbrev Mat (a b : ℕ) : Type := (⟨2, ![a, b]⟩ : Shape).Idx → EReal

/-- Row `p` of a matrix. -/
def row {a b : ℕ} (X : Mat a b) (p : Fin a) : Fin b → EReal := fun k => X (ix2 p k)

/-- The matrix with the given rows. -/
def ofRows {a b : ℕ} (f : Fin a → Fin b → EReal) : Mat a b := fun i => f (i 0) (i 1)

theorem ofRows_apply {a b : ℕ} (f : Fin a → Fin b → EReal) (p : Fin a) (q : Fin b) : ofRows f (ix2 p q) = f p q := rfl

theorem row_ofRows {a b : ℕ} (f : Fin a → Fin b → EReal) (p : Fin a) : row (ofRows f) p = f p := rfl

/-- A matrix is the matrix of its rows. -/
theorem ofRows_row {a b : ℕ} (X : Mat a b) : ofRows (row X) = X := funext fun i => (congrArg X (eq_ix2 i)).symm

/-- Two matrices with the same rows are equal. -/
theorem ext_rows {a b : ℕ} {X Y : Mat a b} (h : ∀ p, row X p = row Y p) : X = Y := by
  rw [← ofRows_row X, ← ofRows_row Y]; exact congrArg ofRows (funext h)

/-- A row vector times column `q` of `R`. -/
def dotCol {k b : ℕ} (l : Fin k → EReal) (R : Mat k b) (q : Fin b) : EReal := ∑ j : Fin k, l j * R (ix2 j q)

/-- A row vector times ROW `q` of `R` (a product with the transpose). -/
def dotRow {k b : ℕ} (l : Fin k → EReal) (R : Mat b k) (q : Fin b) : EReal := ∑ j : Fin k, l j * R (ix2 q j)

/-- The matrix product `L R`. -/
def mm {a k b : ℕ} (L : Mat a k) (R : Mat k b) : Mat a b := ofRows fun p q => dotCol (row L p) R q

/-- The first `a` rows of a matrix. -/
def top {a n b : ℕ} (h : a ≤ n) (X : Mat n b) : Mat a b := ofRows fun p q => X (ix2 (Fin.castLE h p) q)

/-- The softmax of the scaled scores `s · x`, with the maximum taken from `ninf` (which is −∞ where it is used). -/
def softmaxRow {n : ℕ} (s ninf : EReal) (x : Fin n → EReal) (c : Fin n) : EReal :=
  Ideal.div (Ideal.exp (x c * s - max ninf (Finset.univ.fold max ninf fun a => x a * s)))
    (∑ a' : Fin n, Ideal.exp (x a' * s - max ninf (Finset.univ.fold max ninf fun a => x a * s)))

/-- Attention probabilities: row p is the softmax over the keys of the scaled products of row p of `Q` with the rows of `K`. -/
def probs {a d n : ℕ} (s ninf : EReal) (Q : Mat a d) (K : Mat n d) : Mat a n :=
  ofRows fun p c => softmaxRow s ninf (fun a' => dotRow (row Q p) K a') c

/-- The attention output projected and added to the residual: `(P V) Wo + H`. -/
def attnOut {a n d : ℕ} (P : Mat a n) (V : Mat n d) (Wo : Mat d d) (H : Mat a d) : Mat a d :=
  ofRows fun p q => dotCol (fun k => dotCol (row P p) V k) Wo q + H (ix2 p q)

/-- The tanh form of gelu. -/
def gelu (c₁ c₂ one half x : EReal) : EReal := x * (half * (one + Ideal.tanh (c₂ * (x + c₁ * (x * (x * x))))))

/-- The gated activation `gelu(X Wg) ⊙ (X Wu)`. -/
def gated {a d : ℕ} (c₁ c₂ one half : EReal) (X : Mat a d) (Wg Wu : Mat d d) : Mat a d :=
  ofRows fun p q => gelu c₁ c₂ one half (dotCol (row X p) Wg q) * dotCol (row X p) Wu q

/-- The down projection added to the residual: `G Wd + X`. -/
def downOut {a d : ℕ} (G : Mat a d) (Wd : Mat d d) (X : Mat a d) : Mat a d :=
  ofRows fun p q => dotCol (row G p) Wd q + X (ix2 p q)

/-- The whole block. -/
def block {d n : ℕ} (hn : n ≤ d) (s ninf c₁ c₂ one half : EReal) (H Wq Wk Wv Wo Wg Wu Wd : Mat d d) : Mat d d :=
  downOut
    (gated c₁ c₂ one half (attnOut (probs s ninf (mm H Wq) (mm (top hn H) Wk)) (mm (top hn H) Wv) Wo H) Wg Wu)
    Wd
    (attnOut (probs s ninf (mm H Wq) (mm (top hn H) Wk)) (mm (top hn H) Wv) Wo H)

/-! ## Row locality: a row of a stage's result from the same row of its activation operands -/

theorem row_mm {a a' k b : ℕ} (L : Mat a k) (L' : Mat a' k) (R : Mat k b) (p : Fin a) (p' : Fin a')
    (h : row L p = row L' p') : row (mm L R) p = row (mm L' R) p' := by
  unfold mm; rw [row_ofRows, row_ofRows, h]

theorem row_probs {a a' d n : ℕ} (s ninf : EReal) (Q : Mat a d) (Q' : Mat a' d) (K : Mat n d) (p : Fin a) (p' : Fin a')
    (h : row Q p = row Q' p') : row (probs s ninf Q K) p = row (probs s ninf Q' K) p' := by
  unfold probs; rw [row_ofRows, row_ofRows, h]

theorem row_attnOut {a a' n d : ℕ} (P : Mat a n) (P' : Mat a' n) (V : Mat n d) (Wo : Mat d d) (H : Mat a d) (H' : Mat a' d)
    (p : Fin a) (p' : Fin a') (hP : row P p = row P' p') (hH : row H p = row H' p') :
    row (attnOut P V Wo H) p = row (attnOut P' V Wo H') p' := by
  unfold attnOut; rw [row_ofRows, row_ofRows, hP]
  funext q; exact congrArg (_ + ·) (congrFun hH q)

theorem row_gated {a a' d : ℕ} (c₁ c₂ one half : EReal) (X : Mat a d) (X' : Mat a' d) (Wg Wu : Mat d d) (p : Fin a) (p' : Fin a')
    (h : row X p = row X' p') : row (gated c₁ c₂ one half X Wg Wu) p = row (gated c₁ c₂ one half X' Wg Wu) p' := by
  unfold gated; rw [row_ofRows, row_ofRows, h]

theorem row_downOut {a a' d : ℕ} (G : Mat a d) (G' : Mat a' d) (Wd : Mat d d) (X : Mat a d) (X' : Mat a' d)
    (p : Fin a) (p' : Fin a') (hG : row G p = row G' p') (hX : row X p = row X' p') :
    row (downOut G Wd X) p = row (downOut G' Wd X') p' := by
  unfold downOut; rw [row_ofRows, row_ofRows, hG]
  funext q; exact congrArg (_ + ·) (congrFun hX q)

/-- A row of the top rows is that row of the matrix. -/
theorem row_top {a n b : ℕ} (h : a ≤ n) (X : Mat n b) (p : Fin a) : row (top h X) p = row X (Fin.castLE h p) := rfl

end Cert.Decoder

end
-- ==== Proof.Blocks0.lean ====
/-
  Region 0 (the query projection), from row bands to the whole array. The grid has 4 points; point t reads rows
  512·t … 512·t + 511 of the hidden states and the whole query weight, and writes back the same rows of the result.
  Since a row of a matrix product depends only on that row of the left factor, each band written back is the band of
  the product of the WHOLE matrices; the four bands tile the 2048 rows, so the array ends at the product.
-/
import proofs.«160021_j42142219108651_2_alg».proof.Proof.Gen.KernelIdeal.Frame
import proofs.«160021_j42142219108651_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Decoder

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the row-banded windows move with the point, the weight's window stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 4 :=
  (by decide +kernel : ∀ t : Fin grid0.N, _)

/-- Row p of the band of hidden states at point t is row 512·t + p of the array. -/
theorem rowblk0_0 (c : Dev nD) (t : Fin cfg0.N) (p : Fin 512) (r : Fin 2048) (hr : r.val = t.val * 512 + p.val) :
    row (iblk0 V c 0 t) p = row (V c main_arg0) r := by
  funext k
  show V c main_arg0 (((cfg0.win 0).blk t).view.emb (ix2 p k)) = V c main_arg0 (ix2 r k)
  refine congrArg _ (funext fun a => Fin.ext ?_)
  obtain ⟨e0, e1, -⟩ := idx0 t
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The weight's block at every point is the whole array. -/
theorem blk0_1 (c : Dev nD) (t : Fin cfg0.N) : iblk0 V c 1 t = V c main_arg1 := by
  funext j
  show V c main_arg1 (((cfg0.win 1).blk t).view.emb j) = V c main_arg1 j
  refine congrArg _ (funext fun a => Fin.ext ?_)
  obtain ⟨-, -, e2, e3, -⟩ := idx0 t
  match a with
  | ⟨0, _⟩ => show win0_1.index t (0 : Fin 2) * 2048 + 1 * (j 0).val = (j 0).val; rw [e2]; omega
  | ⟨1, _⟩ => show win0_1.index t (1 : Fin 2) * 2048 + 1 * (j 1).val = (j 1).val; rw [e3]; omega

/-- What point t writes back is its band of the product of the whole matrices. -/
theorem flushed0 (hpay : ∀ (x0 : Vec Ideal S512x2048 .f32) (x1 : Vec Ideal S2048x2048 .f32), k0_pay1 (F := Ideal) x0 x1 = mm x0 x1)
    (c : Dev nD) (t : Fin cfg0.N) :
    (dat0 V c).flushed 2 t = ((cfg0.win 2).blk t).view.read (Elt Ideal) (mm (V c main_arg0) (V c main_arg1)) := by
  show (cfg0.win 2).cut (grid0.coords t) ((dat0 V c).after 2 t) = _
  rw [after0_2]
  unfold out0_2
  rw [View.canon_unit_zero hz0]
  simp only [View.ld_unit_zero (S := S512x2048) hz0, View.ld_unit_zero (S := S2048x2048) hz0]
  refine (congrArg _ (hpay (iblk0 V c 0 t) (iblk0 V c 1 t))).trans ?_
  rw [blk0_1]
  funext j
  obtain ⟨p, q, rfl⟩ : ∃ (p : Fin 512) (q : Fin 2048), j = ix2 p q := ⟨j 0, j 1, eq_ix2 j⟩
  obtain ⟨-, -, -, -, e4, e5, ht⟩ := idx0 t
  have hr : t.val * 512 + p.val < 2048 := by have := p.isLt; omega
  have hemb : ((cfg0.win 2).blk t).view.emb (ix2 p q) = ix2 (⟨t.val * 512 + p.val, hr⟩ : Fin 2048) q :=
    funext fun a => Fin.ext (by
      match a with
      | ⟨0, _⟩ => show win0_2.index t (0 : Fin 2) * 512 + 1 * p.val = t.val * 512 + p.val; rw [e4]; omega
      | ⟨1, _⟩ => show win0_2.index t (1 : Fin 2) * 2048 + 1 * q.val = q.val; rw [e5]; omega)
  show mm (iblk0 V c 0 t) (V c main_arg1) (ix2 p q) = mm (V c main_arg0) (V c main_arg1) (((cfg0.win 2).blk t).view.emb (ix2 p q))
  rw [hemb]
  exact congrFun (row_mm (iblk0 V c 0 t) (V c main_arg0) (V c main_arg1) p ⟨t.val * 512 + p.val, hr⟩
    (rowblk0_0 V c t p ⟨t.val * 512 + p.val, hr⟩ rfl)) q

/-- An index of the array is in point t's band iff each coordinate is in the band's range on its axis. -/
theorem mem_blk0 (t : Fin cfg0.N) (i : S2048x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_call0_v1).slice (win0_2.rect t)).set ↔ _
  rw [View.set_slice_whole, Rect.mem_set_unit]
  exact Iff.rfl

/-- Every index of the array is in some point's band: row r is in the band of point r / 512. -/
theorem cover0 (i : S2048x2048.Idx) : ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ : ∃ t : Fin cfg0.N, t.val = (i 0).val / 512 := ⟨⟨(i 0).val / 512, by rw [show cfg0.N = 4 from N_0]; omega⟩, rfl⟩
  refine ⟨t, flush0_2 t, ?_⟩
  rw [mem_blk0]
  obtain ⟨-, -, -, -, e4, e5, -⟩ := idx0 t
  intro a
  match a with
  | ⟨0, _⟩ => show win0_2.index t (0 : Fin 2) * 512 ≤ (i 0).val ∧ (i 0).val < win0_2.index t (0 : Fin 2) * 512 + 512; rw [e4, ht]; omega
  | ⟨1, _⟩ => show win0_2.index t (1 : Fin 2) * 2048 ≤ (i 1).val ∧ (i 1).val < win0_2.index t (1 : Fin 2) * 2048 + 2048; rw [e5]; omega

/-- The query array after region 0: the product of the hidden states and the query weight as the region found them. -/
theorem final0 (hpay : ∀ (x0 : Vec Ideal S512x2048 .f32) (x1 : Vec Ideal S2048x2048 .f32), k0_pay1 (F := Ideal) x0 x1 = mm x0 x1)
    (c : Dev nD) : (dat0 V c).arrAt 2 cfg0.N = mm (V c main_arg0) (V c main_arg1) :=
  (dat0 V c).arrAt_eq_of_cover 2 (mm (V c main_arg0) (V c main_arg1)) (fun t _ => flushed0 V hpay c t) cover0

end Cert.KernelIdeal.Blocks

end
-- ==== Proof.Blocks1.lean ====
/-
  Region 1 (the key and value projections), from row bands to the whole arrays. The grid has 4 points; point t reads
  rows 256·t … 256·t + 255 of the first 1024 hidden states and the whole key and value weights, and writes back the
  same rows of the two results. A row of a product depends only on that row of the left factor, the bands tile the
  1024 rows, so the two arrays end at the products of the whole matrices.
-/
import proofs.«160021_j42142219108651_2_alg».proof.Proof.Gen.KernelIdeal.Frame
import proofs.«160021_j42142219108651_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Decoder

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: the row-banded windows move with the point, the weights' windows stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 ∧ t.val < 4 :=
  (by decide +kernel : ∀ t : Fin grid1.N, _)

/-- Row p of the band of sliced hidden states at point t is row 256·t + p of the slice. -/
theorem rowblk1_0 (c : Dev nD) (t : Fin cfg1.N) (p : Fin 256) (r : Fin 1024) (hr : r.val = t.val * 256 + p.val) :
    row (iblk1 V c 0 t) p = row (V c main_call0_v0) r := by
  funext k
  show V c main_call0_v0 (((cfg1.win 0).blk t).view.emb (ix2 p k)) = V c main_call0_v0 (ix2 r k)
  refine congrArg _ (funext fun a => Fin.ext ?_)
  obtain ⟨e0, e1, -⟩ := idx1 t
  match a with
  | ⟨0, _⟩ => show win1_0.index t (0 : Fin 2) * 256 + 1 * p.val = r.val; rw [e0, hr]; omega
  | ⟨1, _⟩ => show win1_0.index t (1 : Fin 2) * 2048 + 1 * k.val = k.val; rw [e1]; omega

/-- The key weight's block at every point is the whole array. -/
theorem blk1_1 (c : Dev nD) (t : Fin cfg1.N) : iblk1 V c 1 t = V c main_arg2 := by
  funext j
  show V c main_arg2 (((cfg1.win 1).blk t).view.emb j) = V c main_arg2 j
  refine congrArg _ (funext fun a => Fin.ext ?_)
  obtain ⟨-, -, e2, e3, -⟩ := idx1 t
  match a with
  | ⟨0, _⟩ => show win1_1.index t (0 : Fin 2) * 2048 + 1 * (j 0).val = (j 0).val; rw [e2]; omega
  | ⟨1, _⟩ => show win1_1.index t (1 : Fin 2) * 2048 + 1 * (j 1).val = (j 1).val; rw [e3]; omega

/-- The value weight's block at every point is the whole array. -/
theorem blk1_2 (c : Dev nD) (t : Fin cfg1.N) : iblk1 V c 2 t = V c main_arg3 := by
  funext j
  show V c main_arg3 (((cfg1.win 2).blk t).view.emb j) = V c main_arg3 j
  refine congrArg _ (funext fun a => Fin.ext ?_)
  obtain ⟨-, -, -, -, e4, e5, -⟩ := idx1 t
  match a with
  | ⟨0, _⟩ => show win1_2.index t (0 : Fin 2) * 2048 + 1 * (j 0).val = (j 0).val; rw [e4]; omega
  | ⟨1, _⟩ => show win1_2.index t (1 : Fin 2) * 2048 + 1 * (j 1).val = (j 1).val; rw [e5]; omega

/-- What point t writes back to the key array is its band of the product of the whole matrices. -/
theorem flushed1k (hpay : ∀ (x0 : Vec Ideal S256x2048 .f32) (x1 : Vec Ideal S2048x2048 .f32), k1_pay2 (F := Ideal) x0 x1 = mm x0 x1)
    (c : Dev nD) (t : Fin cfg1.N) :
    (dat1 V c).flushed 3 t = ((cfg1.win 3).blk t).view.read (Elt Ideal) (mm (V c main_call0_v0) (V c main_arg2)) := by
  show (cfg1.win 3).cut (grid1.coords t) ((dat1 V c).after 3 t) = _
  rw [after1_3]
  unfold out1_3
  rw [View.canon_unit_zero hz1]
  simp only [View.ld_unit_zero (S := S256x2048) hz1, View.ld_unit_zero (S := S2048x2048) hz1]
  refine (congrArg _ (hpay (iblk1 V c 0 t) (iblk1 V c 1 t))).trans ?_
  rw [blk1_1]
  funext j
  obtain ⟨p, q, rfl⟩ : ∃ (p : Fin 256) (q : Fin 2048), j = ix2 p q := ⟨j 0, j 1, eq_ix2 j⟩
  obtain ⟨-, -, -, -, -, -, e6, e7, -, -, ht⟩ := idx1 t
  have hr : t.val * 256 + p.val < 1024 := by have := p.isLt; omega
  have hemb : ((cfg1.win 3).blk t).view.emb (ix2 p q) = ix2 (⟨t.val * 256 + p.val, hr⟩ : Fin 1024) q :=
    funext fun a => Fin.ext (by
      match a with
      | ⟨0, _⟩ => show win1_3.index t (0 : Fin 2) * 256 + 1 * p.val = t.val * 256 + p.val; rw [e6]; omega
      | ⟨1, _⟩ => show win1_3.index t (1 : Fin 2) * 2048 + 1 * q.val = q.val; rw [e7]; omega)
  show mm (iblk1 V c 0 t) (V c main_arg2) (ix2 p q) = mm (V c main_call0_v0) (V c main_arg2) (((cfg1.win 3).blk t).view.emb (ix2 p q))
  rw [hemb]
  exact congrFun (row_mm (iblk1 V c 0 t) (V c main_call0_v0) (V c main_arg2) p ⟨t.val * 256 + p.val, hr⟩
    (rowblk1_0 V c t p ⟨t.val * 256 + p.val, hr⟩ rfl)) q

/-- What point t writes back to the value array is its band of the product of the whole matrices. -/
theorem flushed1v (hpay : ∀ (x0 : Vec Ideal S256x2048 .f32) (x2 : Vec Ideal S2048x2048 .f32), k1_pay3 (F := Ideal) x0 x2 = mm x0 x2)
    (c : Dev nD) (t : Fin cfg1.N) :
    (dat1 V c).flushed 4 t = ((cfg1.win 4).blk t).view.read (Elt Ideal) (mm (V c main_call0_v0) (V c main_arg3)) := by
  show (cfg1.win 4).cut (grid1.coords t) ((dat1 V c).after 4 t) = _
  rw [after1_4]
  unfold out1_4
  rw [View.canon_unit_zero hz1]
  simp only [View.ld_unit_zero (S := S256x2048) hz1, View.ld_unit_zero (S := S2048x2048) hz1]
  refine (congrArg _ (hpay (iblk1 V c 0 t) (iblk1 V c 2 t))).trans ?_
  rw [blk1_2]
  funext j
  obtain ⟨p, q, rfl⟩ : ∃ (p : Fin 256) (q : Fin 2048), j = ix2 p q := ⟨j 0, j 1, eq_ix2 j⟩
  obtain ⟨-, -, -, -, -, -, -, -, e8, e9, ht⟩ := idx1 t
  have hr : t.val * 256 + p.val < 1024 := by have := p.isLt; omega
  have hemb : ((cfg1.win 4).blk t).view.emb (ix2 p q) = ix2 (⟨t.val * 256 + p.val, hr⟩ : Fin 1024) q :=
    funext fun a => Fin.ext (by
      match a with
      | ⟨0, _⟩ => show win1_4.index t (0 : Fin 2) * 256 + 1 * p.val = t.val * 256 + p.val; rw [e8]; omega
      | ⟨1, _⟩ => show win1_4.index t (1 : Fin 2) * 2048 + 1 * q.val = q.val; rw [e9]; omega)
  show mm (iblk1 V c 0 t) (V c main_arg3) (ix2 p q) = mm (V c main_call0_v0) (V c main_arg3) (((cfg1.win 4).blk t).view.emb (ix2 p q))
  rw [hemb]
  exact congrFun (row_mm (iblk1 V c 0 t) (V c main_call0_v0) (V c main_arg3) p ⟨t.val * 256 + p.val, hr⟩
    (rowblk1_0 V c t p ⟨t.val * 256 + p.val, hr⟩ rfl)) q

theorem mem_blk1k (t : Fin cfg1.N) (i : S1024x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_call0_v2_0).slice (win1_3.rect t)).set ↔ _
  rw [View.set_slice_whole, Rect.mem_set_unit]
  exact Iff.rfl

theorem mem_blk1v (t : Fin cfg1.N) (i : S1024x2048.Idx) :
    i ∈ ((cfg1.win 4).blk t).view.set ↔ ∀ a : Fin 2, win1_4.index t a * S256x2048.size a ≤ (i a).val ∧ (i a).val < win1_4.index t a * S256x2048.size a + S256x2048.size a := by
  show i ∈ ((View.whole main_call0_v2_1).slice (win1_4.rect t)).set ↔ _
  rw [View.set_slice_whole, Rect.mem_set_unit]
  exact Iff.rfl

/-- Every index of the key array is in some point's band: row r is in the band of point r / 256. -/
theorem cover1k (i : S1024x2048.Idx) : ∃ t : Fin cfg1.N, (cfg1.win 3).flush t = true ∧ i ∈ ((cfg1.win 3).blk t).view.set := by
  have hi0 : (i 0).val < 1024 := (i 0).isLt
  have hi1 : (i 1).val < 2048 := (i 1).isLt
  obtain ⟨t, ht⟩ : ∃ t : Fin cfg1.N, t.val = (i 0).val / 256 := ⟨⟨(i 0).val / 256, by rw [show cfg1.N = 4 from N_1]; omega⟩, rfl⟩
  refine ⟨t, flush1_3 t, ?_⟩
  rw [mem_blk1k]
  obtain ⟨-, -, -, -, -, -, e6, e7, -⟩ := idx1 t
  intro a
  match a with
  | ⟨0, _⟩ => show win1_3.index t (0 : Fin 2) * 256 ≤ (i 0).val ∧ (i 0).val < win1_3.index t (0 : Fin 2) * 256 + 256; rw [e6, ht]; omega
  | ⟨1, _⟩ => show win1_3.index t (1 : Fin 2) * 2048 ≤ (i 1).val ∧ (i 1).val < win1_3.index t (1 : Fin 2) * 2048 + 2048; rw [e7]; omega

/-- Every index of the value array is in some point's band. -/
theorem cover1v (i : S1024x2048.Idx) : ∃ t : Fin cfg1.N, (cfg1.win 4).flush t = true ∧ i ∈ ((cfg1.win 4).blk t).view.set := by
  have hi0 : (i 0).val < 1024 := (i 0).isLt
  have hi1 : (i 1).val < 2048 := (i 1).isLt
  obtain ⟨t, ht⟩ : ∃ t : Fin cfg1.N, t.val = (i 0).val / 256 := ⟨⟨(i 0).val / 256, by rw [show cfg1.N = 4 from N_1]; omega⟩, rfl⟩
  refine ⟨t, flush1_4 t, ?_⟩
  rw [mem_blk1v]
  obtain ⟨-, -, -, -, -, -, -, -, e8, e9, -⟩ := idx1 t
  intro a
  match a with
  | ⟨0, _⟩ => show win1_4.index t (0 : Fin 2) * 256 ≤ (i 0).val ∧ (i 0).val < win1_4.index t (0 : Fin 2) * 256 + 256; rw [e8, ht]; omega
  | ⟨1, _⟩ => show win1_4.index t (1 : Fin 2) * 2048 ≤ (i 1).val ∧ (i 1).val < win1_4.index t (1 : Fin 2) * 2048 + 2048; rw [e9]; omega

/-- The key array after region 1. -/
theorem final1k (hpay : ∀ (x0 : Vec Ideal S256x2048 .f32) (x1 : Vec Ideal S2048x2048 .f32), k1_pay2 (F := Ideal) x0 x1 = mm x0 x1)
    (c : Dev nD) : (dat1 V c).arrAt 3 cfg1.N = mm (V c main_call0_v0) (V c main_arg2) :=
  (dat1 V c).arrAt_eq_of_cover 3 (mm (V c main_call0_v0) (V c main_arg2)) (fun t _ => flushed1k V hpay c t) cover1k

/-- The value array after region 1. -/
theorem final1v (hpay : ∀ (x0 : Vec Ideal S256x2048 .f32) (x2 : Vec Ideal S2048x2048 .f32), k1_pay3 (F := Ideal) x0 x2 = mm x0 x2)
    (c : Dev nD) : (dat1 V c).arrAt 4 cfg1.N = mm (V c main_call0_v0) (V c main_arg3) :=
  (dat1 V c).arrAt_eq_of_cover 4 (mm (V c main_call0_v0) (V c main_arg3)) (fun t _ => flushed1v V hpay c t) cover1v

end Cert.KernelIdeal.Blocks

end
-- ==== Proof.Blocks2.lean ====
/-
  Region 2 (attention probabilities), from row bands to the whole array. The grid has 2 points; point t reads rows
  1024·t … 1024·t + 1023 of the queries and the whole key array, and writes back the same rows of the probabilities.
  A row of the probabilities (the softmax over the keys of that query row's scaled products with the key rows) depends
  only on that row of the queries; the two bands tile the 2048 rows.
-/
import proofs.«160021_j42142219108651_2_alg».proof.Proof.Gen.KernelIdeal.Frame
import proofs.«160021_j42142219108651_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Decoder

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the row-banded windows move with the point, the keys' window stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 2 :=
  (by decide +kernel : ∀ t : Fin grid2.N, _)

/-- Row p of the band of queries at point t is row 1024·t + p of the array. -/
theorem rowblk2_0 (c : Dev nD) (t : Fin cfg2.N) (p : Fin 1024) (r : Fin 2048) (hr : r.val = t.val * 1024 + p.val) :
    row (iblk2 V c 0 t) p = row (V c main_call0_v1) r := by
  funext k
  show V c main_call0_v1 (((cfg2.win 0).blk t).view.emb (ix2 p k)) = V c main_call0_v1 (ix2 r k)
  refine congrArg _ (funext fun a => Fin.ext ?_)
  obtain ⟨e0, e1, -⟩ := idx2 t
  match a with
  | ⟨0, _⟩ => show win2_0.index t (0 : Fin 2) * 1024 + 1 * p.val = r.val; rw [e0, hr]; omega
  | ⟨1, _⟩ => show win2_0.index t (1 : Fin 2) * 2048 + 1 * k.val = k.val; rw [e1]; omega

/-- The keys' block at every point is the whole array. -/
theorem blk2_1 (c : Dev nD) (t : Fin cfg2.N) : iblk2 V c 1 t = V c main_call0_v2_0 := by
  funext j
  show V c main_call0_v2_0 (((cfg2.win 1).blk t).view.emb j) = V c main_call0_v2_0 j
  refine congrArg _ (funext fun a => Fin.ext ?_)
  obtain ⟨-, -, e2, e3, -⟩ := idx2 t
  match a with
  | ⟨0, _⟩ => show win2_1.index t (0 : Fin 2) * 1024 + 1 * (j 0).val = (j 0).val; rw [e2]; omega
  | ⟨1, _⟩ => show win2_1.index t (1 : Fin 2) * 2048 + 1 * (j 1).val = (j 1).val; rw [e3]; omega

/-- What point t writes back is its band of the probabilities of the whole arrays. -/
theorem flushed2 (s ninf : EReal)
    (hpay : ∀ (x0 x1 : Vec Ideal S1024x2048 .bf16), k2_pay1 (F := Ideal) x0 x1 = probs s ninf x0 x1)
    (c : Dev nD) (t : Fin cfg2.N) :
    (dat2 V c).flushed 2 t = ((cfg2.win 2).blk t).view.read (Elt Ideal) (probs s ninf (V c main_call0_v1) (V c main_call0_v2_0)) := by
  show (cfg2.win 2).cut (grid2.coords t) ((dat2 V c).after 2 t) = _
  rw [after2_2]
  unfold out2_2
  rw [View.canon_unit_zero hz2]
  simp only [View.ld_unit_zero (S := S1024x2048) hz2]
  refine (congrArg _ (hpay (iblk2 V c 0 t) (iblk2 V c 1 t))).trans ?_
  rw [blk2_1]
  funext j
  obtain ⟨p, q, rfl⟩ : ∃ (p : Fin 1024) (q : Fin 1024), j = ix2 p q := ⟨j 0, j 1, eq_ix2 j⟩
  obtain ⟨-, -, -, -, e4, e5, ht⟩ := idx2 t
  have hr : t.val * 1024 + p.val < 2048 := by have := p.isLt; omega
  have hemb : ((cfg2.win 2).blk t).view.emb (ix2 p q) = ix2 (⟨t.val * 1024 + p.val, hr⟩ : Fin 2048) q :=
    funext fun a => Fin.ext (by
      match a with
      | ⟨0, _⟩ => show win2_2.index t (0 : Fin 2) * 1024 + 1 * p.val = t.val * 1024 + p.val; rw [e4]; omega
      | ⟨1, _⟩ => show win2_2.index t (1 : Fin 2) * 1024 + 1 * q.val = q.val; rw [e5]; omega)
  show probs s ninf (iblk2 V c 0 t) (V c main_call0_v2_0) (ix2 p q)
    = probs s ninf (V c main_call0_v1) (V c main_call0_v2_0) (((cfg2.win 2).blk t).view.emb (ix2 p q))
  rw [hemb]
  exact congrFun (row_probs s ninf (iblk2 V c 0 t) (V c main_call0_v1) (V c main_call0_v2_0) p ⟨t.val * 1024 + p.val, hr⟩
    (rowblk2_0 V c t p ⟨t.val * 1024 + p.val, hr⟩ rfl)) q

theorem mem_blk2 (t : Fin cfg2.N) (i : S2048x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_call0_v3).slice (win2_2.rect t)).set ↔ _
  rw [View.set_slice_whole, Rect.mem_set_unit]
  exact Iff.rfl

/-- Every index of the array is in some point's band: row r is in the band of point r / 1024. -/
theorem cover2 (i : S2048x1024.Idx) : ∃ t : Fin cfg2.N, (cfg2.win 2).flush t = true ∧ i ∈ ((cfg2.win 2).blk t).view.set := by
  have hi0 : (i 0).val < 2048 := (i 0).isLt
  have hi1 : (i 1).val < 1024 := (i 1).isLt
  obtain ⟨t, ht⟩ : ∃ t : Fin cfg2.N, t.val = (i 0).val / 1024 := ⟨⟨(i 0).val / 1024, by rw [show cfg2.N = 2 from N_2]; omega⟩, rfl⟩
  refine ⟨t, flush2_2 t, ?_⟩
  rw [mem_blk2]
  obtain ⟨-, -, -, -, e4, e5, -⟩ := idx2 t
  intro a
  match a with
  | ⟨0, _⟩ => show win2_2.index t (0 : Fin 2) * 1024 ≤ (i 0).val ∧ (i 0).val < win2_2.index t (0 : Fin 2) * 1024 + 1024; rw [e4, ht]; omega
  | ⟨1, _⟩ => show win2_2.index t (1 : Fin 2) * 1024 ≤ (i 1).val ∧ (i 1).val < win2_2.index t (1 : Fin 2) * 1024 + 1024; rw [e5]; omega

/-- The probabilities array after region 2. -/
theorem final2 (s ninf : EReal)
    (hpay : ∀ (x0 x1 : Vec Ideal S1024x2048 .bf16), k2_pay1 (F := Ideal) x0 x1 = probs s ninf x0 x1)
    (c : Dev nD) : (dat2 V c).arrAt 2 cfg2.N = probs s ninf (V c main_call0_v1) (V c main_call0_v2_0) :=
  (dat2 V c).arrAt_eq_of_cover 2 (probs s ninf (V c main_call0_v1) (V c main_call0_v2_0)) (fun t _ => flushed2 V s ninf hpay c t) cover2

end Cert.KernelIdeal.Blocks

end
-- ==== Proof.Blocks3.lean ====
/-
  Region 3 (attention output, projection and residual), from row bands to the whole array. The grid has 4 points;
  point t reads rows 512·t … 512·t + 511 of the probabilities and of the hidden states, the whole value array and the
  whole output weight, and writes back the same rows of the post-attention states. A row of (P V) Wo + H depends only
  on that row of P and of H; the four bands tile the 2048 rows.
-/
import proofs.«160021_j42142219108651_2_alg».proof.Proof.Gen.KernelIdeal.Frame
import proofs.«160021_j42142219108651_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Decoder

variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: the row-banded windows move with the point, the values' and the weight's stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 ∧ t.val < 4 :=
  (by decide +kernel : ∀ t : Fin grid3.N, _)

/-- Row p of the band of probabilities at point t is row 512·t + p of the array. -/
theorem rowblk3_0 (c : Dev nD) (t : Fin cfg3.N) (p : Fin 512) (r : Fin 2048) (hr : r.val = t.val * 512 + p.val) :
    row (iblk3 V c 0 t) p = row (V c main_call0_v3) r := by
  funext k
  show V c main_call0_v3 (((cfg3.win 0).blk t).view.emb (ix2 p k)) = V c main_call0_v3 (ix2 r k)
  refine congrArg _ (funext fun a => Fin.ext ?_)
  obtain ⟨e0, e1, -⟩ := idx3 t
  match a with
  | ⟨0, _⟩ => show win3_0.index t (0 : Fin 2) * 512 + 1 * p.val = r.val; rw [e0, hr]; omega
  | ⟨1, _⟩ => show win3_0.index t (1 : Fin 2) * 1024 + 1 * k.val = k.val; rw [e1]; omega

/-- Row p of the band of hidden states at point t is row 512·t + p of the array. -/
theorem rowblk3_3 (c : Dev nD) (t : Fin cfg3.N) (p : Fin 512) (r : Fin 2048) (hr : r.val = t.val * 512 + p.val) :
    row (iblk3 V c 3 t) p = row (V c main_arg0) r := by
  funext k
  show V c main_arg0 (((cfg3.win 3).blk t).view.emb (ix2 p k)) = V c main_arg0 (ix2 r k)
  refine congrArg _ (funext fun a => Fin.ext ?_)
  obtain ⟨-, -, -, -, -, -, e6, e7, -⟩ := idx3 t
  match a with
  | ⟨0, _⟩ => show win3_3.index t (0 : Fin 2) * 512 + 1 * p.val = r.val; rw [e6, hr]; omega
  | ⟨1, _⟩ => show win3_3.index t (1 : Fin 2) * 2048 + 1 * k.val = k.val; rw [e7]; omega

/-- The values' block at every point is the whole array. -/
theorem blk3_1 (c : Dev nD) (t : Fin cfg3.N) : iblk3 V c 1 t = V c main_call0_v2_1 := by
  funext j
  show V c main_call0_v2_1 (((cfg3.win 1).blk t).view.emb j) = V c main_call0_v2_1 j
  refine congrArg _ (funext fun a => Fin.ext ?_)
  obtain ⟨-, -, e2, e3, -⟩ := idx3 t
  match a with
  | ⟨0, _⟩ => show win3_1.index t (0 : Fin 2) * 1024 + 1 * (j 0).val = (j 0).val; rw [e2]; omega
  | ⟨1, _⟩ => show win3_1.index t (1 : Fin 2) * 2048 + 1 * (j 1).val = (j 1).val; rw [e3]; omega

/-- The output weight's block at every point is the whole array. -/
theorem blk3_2 (c : Dev nD) (t : Fin cfg3.N) : iblk3 V c 2 t = V c main_arg4 := by
  funext j
  show V c main_arg4 (((cfg3.win 2).blk t).view.emb j) = V c main_arg4 j
  refine congrArg _ (funext fun a => Fin.ext ?_)
  obtain ⟨-, -, -, -, e4, e5, -⟩ := idx3 t
  match a with
  | ⟨0, _⟩ => show win3_2.index t (0 : Fin 2) * 2048 + 1 * (j 0).val = (j 0).val; rw [e4]; omega
  | ⟨1, _⟩ => show win3_2.index t (1 : Fin 2) * 2048 + 1 * (j 1).val = (j 1).val; rw [e5]; omega

/-- What point t writes back is its band of the post-attention states of the whole arrays. -/
theorem flushed3
    (hpay : ∀ (x0 : Vec Ideal S512x1024 .bf16) (x1 : Vec Ideal S1024x2048 .bf16) (x2 : Vec Ideal S2048x2048 .f32) (x3 : Vec Ideal S512x2048 .f32),
      k3_pay1 (F := Ideal) x0 x1 x2 x3 = attnOut x0 x1 x2 x3)
    (c : Dev nD) (t : Fin cfg3.N) :
    (dat3 V c).flushed 4 t = ((cfg3.win 4).blk t).view.read (Elt Ideal)
      (attnOut (V c main_call0_v3) (V c main_call0_v2_1) (V c main_arg4) (V c main_arg0)) := by
  show (cfg3.win 4).cut (grid3.coords t) ((dat3 V c).after 4 t) = _
  rw [after3_4]
  unfold out3_4
  rw [View.canon_unit_zero hz3]
  simp only [View.ld_unit_zero (S := S512x1024) hz3, View.ld_unit_zero (S := S1024x2048) hz3,
    View.ld_unit_zero (S := S2048x2048) hz3, View.ld_unit_zero (S := S512x2048) hz3]
  refine (congrArg _ (hpay (iblk3 V c 0 t) (iblk3 V c 1 t) (iblk3 V c 2 t) (iblk3 V c 3 t))).trans ?_
  rw [blk3_1, blk3_2]
  funext j
  obtain ⟨p, q, rfl⟩ : ∃ (p : Fin 512) (q : Fin 2048), j = ix2 p q := ⟨j 0, j 1, eq_ix2 j⟩
  obtain ⟨-, -, -, -, -, -, -, -, e8, e9, ht⟩ := idx3 t
  have hr : t.val * 512 + p.val < 2048 := by have := p.isLt; omega
  have hemb : ((cfg3.win 4).blk t).view.emb (ix2 p q) = ix2 (⟨t.val * 512 + p.val, hr⟩ : Fin 2048) q :=
    funext fun a => Fin.ext (by
      match a with
      | ⟨0, _⟩ => show win3_4.index t (0 : Fin 2) * 512 + 1 * p.val = t.val * 512 + p.val; rw [e8]; omega
      | ⟨1, _⟩ => show win3_4.index t (1 : Fin 2) * 2048 + 1 * q.val = q.val; rw [e9]; omega)
  show attnOut (iblk3 V c 0 t) (V c main_call0_v2_1) (V c main_arg4) (iblk3 V c 3 t) (ix2 p q)
    = attnOut (V c main_call0_v3) (V c main_call0_v2_1) (V c main_arg4) (V c main_arg0) (((cfg3.win 4).blk t).view.emb (ix2 p q))
  rw [hemb]
  exact congrFun (row_attnOut (iblk3 V c 0 t) (V c main_call0_v3) (V c main_call0_v2_1) (V c main_arg4) (iblk3 V c 3 t) (V c main_arg0)
    p ⟨t.val * 512 + p.val, hr⟩ (rowblk3_0 V c t p ⟨t.val * 512 + p.val, hr⟩ rfl) (rowblk3_3 V c t p ⟨t.val * 512 + p.val, hr⟩ rfl)) q

theorem mem_blk3 (t : Fin cfg3.N) (i : S2048x2048.Idx) :
    i ∈ ((cfg3.win 4).blk t).view.set ↔ ∀ a : Fin 2, win3_4.index t a * S512x2048.size a ≤ (i a).val ∧ (i a).val < win3_4.index t a * S512x2048.size a + S512x2048.size a := by
  show i ∈ ((View.whole main_call0_v4).slice (win3_4.rect t)).set ↔ _
  rw [View.set_slice_whole, Rect.mem_set_unit]
  exact Iff.rfl

/-- Every index of the array is in some point's band: row r is in the band of point r / 512. -/
theorem cover3 (i : S2048x2048.Idx) : ∃ t : Fin cfg3.N, (cfg3.win 4).flush t = true ∧ i ∈ ((cfg3.win 4).blk t).view.set := by
  have hi0 : (i 0).val < 2048 := (i 0).isLt
  have hi1 : (i 1).val < 2048 := (i 1).isLt
  obtain ⟨t, ht⟩ : ∃ t : Fin cfg3.N, t.val = (i 0).val / 512 := ⟨⟨(i 0).val / 512, by rw [show cfg3.N = 4 from N_3]; omega⟩, rfl⟩
  refine ⟨t, flush3_4 t, ?_⟩
  rw [mem_blk3]
  obtain ⟨-, -, -, -, -, -, -, -, e8, e9, -⟩ := idx3 t
  intro a
  match a with
  | ⟨0, _⟩ => show win3_4.index t (0 : Fin 2) * 512 ≤ (i 0).val ∧ (i 0).val < win3_4.index t (0 : Fin 2) * 512 + 512; rw [e8, ht]; omega
  | ⟨1, _⟩ => show win3_4.index t (1 : Fin 2) * 2048 ≤ (i 1).val ∧ (i 1).val < win3_4.index t (1 : Fin 2) * 2048 + 2048; rw [e9]; omega

/-- The post-attention array after region 3. -/
theorem final3
    (hpay : ∀ (x0 : Vec Ideal S512x1024 .bf16) (x1 : Vec Ideal S1024x2048 .bf16) (x2 : Vec Ideal S2048x2048 .f32) (x3 : Vec Ideal S512x2048 .f32),
      k3_pay1 (F := Ideal) x0 x1 x2 x3 = attnOut x0 x1 x2 x3)
    (c : Dev nD) : (dat3 V c).arrAt 4 cfg3.N = attnOut (V c main_call0_v3) (V c main_call0_v2_1) (V c main_arg4) (V c main_arg0) :=
  (dat3 V c).arrAt_eq_of_cover 4 (attnOut (V c main_call0_v3) (V c main_call0_v2_1) (V c main_arg4) (V c main_arg0))
    (fun t _ => flushed3 V hpay c t) cover3

end Cert.KernelIdeal.Blocks

end
-- ==== Proof.Blocks4.lean ====
/-
  Region 4 (the gated activation), from row bands to the whole array. The grid has 4 points; point t reads rows
  512·t … 512·t + 511 of the post-attention states and the whole gate and up weights, and writes back the same rows of
  gelu(X Wg) ⊙ (X Wu). A row of it depends only on that row of X; the four bands tile the 2048 rows.
-/
import proofs.«160021_j42142219108651_2_alg».proof.Proof.Gen.KernelIdeal.Frame
import proofs.«160021_j42142219108651_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Decoder

variable (V : (c : Dev nD) → (b : Ref sig .tc) → Buf (Elt Ideal) ((c : Thread nD τ).loc b))

theorem hz4 : (![0, 0] : Fin 2 → Nat) = fun _ => 0 := funext fun a => by fin_cases a <;> rfl

/-- The index maps over the grid: the row-banded windows move with the point, the weights' windows stay. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 4 :=
  (by decide +kernel : ∀ t : Fin grid4.N, _)

/-- Row p of the band of post-attention states at point t is row 512·t + p of the array. -/
theorem rowblk4_0 (c : Dev nD) (t : Fin cfg4.N) (p : Fin 512) (r : Fin 2048) (hr : r.val = t.val * 512 + p.val) :
    row (iblk4 V c 0 t) p = row (V c main_call0_v4) r := by
  funext k
  show V c main_call0_v4 (((cfg4.win 0).blk t).view.emb (ix2 p k)) = V c main_call0_v4 (ix2 r k)
  refine congrArg _ (funext fun a => Fin.ext ?_)
  obtain ⟨e0, e1, -⟩ := idx4 t
  match a with
  | ⟨0, _⟩ => show win4_0.index t (0 : Fin 2) * 512 + 1 * p.val = r.val; rw [e0, hr]; omega
  | ⟨1, _⟩ => show win4_0.index t (1 : Fin 2) * 2048 + 1 * k.val = k.val; rw [e1]; omega

/-- The gate weight's block at every point is the whole array. -/
theorem blk4_1 (c : Dev nD) (t : Fin cfg4.N) : iblk4 V c 1 t = V c main_arg5 := by
  funext j
  show V c main_arg5 (((cfg4.win 1).blk t).view.emb j) = V c main_arg5 j
  refine congrArg _ (funext fun a => Fin.ext ?_)
  obtain ⟨-, -, e2, e3, -⟩ := idx4 t
  match a with
  | ⟨0, _⟩ => show win4_1.index t (0 : Fin 2) * 2048 + 1 * (j 0).val = (j 0).val; rw [e2]; omega
  | ⟨1, _⟩ => show win4_1.index t (1 : Fin 2) * 2048 + 1 * (j 1).val = (j 1).val; rw [e3]; omega

/-- The up weight's block at every point is the whole array. -/
theorem blk4_2 (c : Dev nD) (t : Fin cfg4.N) : iblk4 V c 2 t = V c main_arg6 := by
  funext j
  show V c main_arg6 (((cfg4.win 2).blk t).view.emb j) = V c main_arg6 j
  refine congrArg _ (funext fun a => Fin.ext ?_)
  obtain ⟨-, -, -, -, e4, e5, -⟩ := idx4 t
  match a with
  | ⟨0, _⟩ => show win4_2.index t (0 : Fin 2) * 2048 + 1 * (j 0).val = (j 0).val; rw [e4]; omega
  | ⟨1, _⟩ => show win4_2.index t (1 : Fin 2) * 2048 + 1 * (j 1).val = (j 1).val; rw [e5]; omega

/-- What point t writes back is its band of the gated activation of the whole arrays. -/
theorem flushed4 (c₁ c₂ one half : EReal)
    (hpay : ∀ (x0 : Vec Ideal S512x2048 .bf16) (x1 x2 : Vec Ideal S2048x2048 .f32),
      k4_pay1 (F := Ideal) x0 x1 x2 = gated c₁ c₂ one half x0 x1 x2)
    (c : Dev nD) (t : Fin cfg4.N) :
    (dat4 V c).flushed 3 t = ((cfg4.win 3).blk t).view.read (Elt Ideal)
      (gated c₁ c₂ one half (V c main_call0_v4) (V c main_arg5) (V c main_arg6)) := by
  show (cfg4.win 3).cut (grid4.coords t) ((dat4 V c).after 3 t) = _
  rw [after4_3]
  unfold out4_3
  rw [View.canon_unit_zero hz4]
  simp only [View.ld_unit_zero (S := S512x2048) hz4, View.ld_unit_zero (S := S2048x2048) hz4]
  refine (congrArg _ (hpay (iblk4 V c 0 t) (iblk4 V c 1 t) (iblk4 V c 2 t))).trans ?_
  rw [blk4_1, blk4_2]
  funext j
  obtain ⟨p, q, rfl⟩ : ∃ (p : Fin 512) (q : Fin 2048), j = ix2 p q := ⟨j 0, j 1, eq_ix2 j⟩
  obtain ⟨-, -, -, -, -, -, e6, e7, ht⟩ := idx4 t
  have hr : t.val * 512 + p.val < 2048 := by have := p.isLt; omega
  have hemb : ((cfg4.win 3).blk t).view.emb (ix2 p q) = ix2 (⟨t.val * 512 + p.val, hr⟩ : Fin 2048) q :=
    funext fun a => Fin.ext (by
      match a with
      | ⟨0, _⟩ => show win4_3.index t (0 : Fin 2) * 512 + 1 * p.val = t.val * 512 + p.val; rw [e6]; omega
      | ⟨1, _⟩ => show win4_3.index t (1 : Fin 2) * 2048 + 1 * q.val = q.val; rw [e7]; omega)
  show gated c₁ c₂ one half (iblk4 V c 0 t) (V c main_arg5) (V c main_arg6) (ix2 p q)
    = gated c₁ c₂ one half (V c main_call0_v4) (V c main_arg5) (V c main_arg6) (((cfg4.win 3).blk t).view.emb (ix2 p q))
  rw [hemb]
  exact congrFun (row_gated c₁ c₂ one half (iblk4 V c 0 t) (V c main_call0_v4) (V c main_arg5) (V c main_arg6) p ⟨t.val * 512 + p.val, hr⟩
    (rowblk4_0 V c t p ⟨t.val * 512 + p.val, hr⟩ rfl)) q

theorem mem_blk4 (t : Fin cfg4.N) (i : S2048x2048.Idx) :
    i ∈ ((cfg4.win 3).blk t).view.set ↔ ∀ a : Fin 2, win4_3.index t a * S512x2048.size a ≤ (i a).val ∧ (i a).val < win4_3.index t a * S512x2048.size a + S512x2048.size a := by
  show i ∈ ((View.whole main_call0_v5).slice (win4_3.rect t)).set ↔ _
  rw [View.set_slice_whole, Rect.mem_set_unit]
  exact Iff.rfl

/-- Every index of the array is in some point's band: row r is in the band of point r / 512. -/
theorem cover4 (i : S2048x2048.Idx) : ∃ t : Fin cfg4.N, (cfg4.win 3).flush t = true ∧ i ∈ ((cfg4.win 3).blk t).view.set := by
  have hi0 : (i 0).val < 2048 := (i 0).isLt
  have hi1 : (i 1).val < 2048 := (i 1).isLt
  obtain ⟨t, ht⟩ : ∃ t : Fin cfg4.N, t.val = (i 0).val / 512 := ⟨⟨(i 0).val / 512, by rw [show cfg4.N = 4 from N_4]; omega⟩, rfl⟩
  refine ⟨t, flush4_3 t, ?_⟩
  rw [mem_blk4]
  obtain ⟨-, -, -, -, -, -, e6, e7, -⟩ := idx4 t
  intro a
  match a with
  | ⟨0, _⟩ => show win4_3.index t (0 : Fin 2) * 512 ≤ (i 0).val ∧ (i 0).val < win4_3.index t (0 : Fin 2) * 512 + 512; rw [e6, ht]; omega
  | ⟨1, _⟩ => show win4_3.index t (1 : Fin 2) * 2048 ≤ (i 1).val ∧ (i 1).val < win4_3.index t (1 : Fin 2) * 2048 + 2048; rw [e7]; omega

/-- The gated-activation array after region 4. -/
theorem final4 (c₁ c₂ one half : EReal)
    (hpay : ∀ (x0 : Vec Ideal S512x2048 .bf16) (x1 x2 : Vec Ideal S2048x2048 .f32),
      k4_pay1 (F := Ideal) x0 x1 x2 = gated c₁ c₂ one half x0 x1 x2)
    (c : Dev nD) : (dat4 V c).arrAt 3 cfg4.N = gated c₁ c₂ one half (V c main_call0_v4) (V c main_arg5) (V c main_arg6) :=
  (dat4 V c).arrAt_eq_of_cover 3 (gated c₁ c₂ one half (V c main_call0_v4) (V c main_arg5) (V c main_arg6))
    (fun t _ => flushed4 V c₁ c₂ one half hpay c t) cover4

end Cert.KernelIdeal.Blocks

end
-- ==== Proof.Blocks5.lean ====
/-
  Region 5 (the down projection and residual), from row bands to the whole result. The grid has 2 points; point t
  reads rows 1024·t … 1024·t + 1023 of the gated activations and of the post-attention states and the whole down
  weight, and writes back the same rows of G Wd + X. A row of it depends only on that row of G and of X; the two bands
  tile the 2048 rows.
-/
import proofs.«160021_j42142219108651_2_alg».proof.Proof.Gen.KernelIdeal.Frame
import proofs.«160021_j42142219108651_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Decoder

variable (V : (c : Dev nD) → (b : Ref sig .tc) → Buf (Elt Ideal) ((c : Thread nD τ).loc b))

theorem hz5 : (![0, 0] : Fin 2 → Nat) = fun _ => 0 := funext fun a => by fin_cases a <;> rfl

/-- The index maps over the grid: the row-banded windows move with the point, the weight's window stays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 ∧ t.val < 2 :=
  (by decide +kernel : ∀ t : Fin grid5.N, _)

/-- Row p of the band of gated activations at point t is row 1024·t + p of the array. -/
theorem rowblk5_0 (c : Dev nD) (t : Fin cfg5.N) (p : Fin 1024) (r : Fin 2048) (hr : r.val = t.val * 1024 + p.val) :
    row (iblk5 V c 0 t) p = row (V c main_call0_v5) r := by
  funext k
  show V c main_call0_v5 (((cfg5.win 0).blk t).view.emb (ix2 p k)) = V c main_call0_v5 (ix2 r k)
  refine congrArg _ (funext fun a => Fin.ext ?_)
  obtain ⟨e0, e1, -⟩ := idx5 t
  match a with
  | ⟨0, _⟩ => show win5_0.index t (0 : Fin 2) * 1024 + 1 * p.val = r.val; rw [e0, hr]; omega
  | ⟨1, _⟩ => show win5_0.index t (1 : Fin 2) * 2048 + 1 * k.val = k.val; rw [e1]; omega

/-- Row p of the band of post-attention states at point t is row 1024·t + p of the array. -/
theorem rowblk5_2 (c : Dev nD) (t : Fin cfg5.N) (p : Fin 1024) (r : Fin 2048) (hr : r.val = t.val * 1024 + p.val) :
    row (iblk5 V c 2 t) p = row (V c main_call0_v4) r := by
  funext k
  show V c main_call0_v4 (((cfg5.win 2).blk t).view.emb (ix2 p k)) = V c main_call0_v4 (ix2 r k)
  refine congrArg _ (funext fun a => Fin.ext ?_)
  obtain ⟨-, -, -, -, e4, e5, -⟩ := idx5 t
  match a with
  | ⟨0, _⟩ => show win5_2.index t (0 : Fin 2) * 1024 + 1 * p.val = r.val; rw [e4, hr]; omega
  | ⟨1, _⟩ => show win5_2.index t (1 : Fin 2) * 2048 + 1 * k.val = k.val; rw [e5]; omega

/-- The down weight's block at every point is the whole array. -/
theorem blk5_1 (c : Dev nD) (t : Fin cfg5.N) : iblk5 V c 1 t = V c main_arg7 := by
  funext j
  show V c main_arg7 (((cfg5.win 1).blk t).view.emb j) = V c main_arg7 j
  refine congrArg _ (funext fun a => Fin.ext ?_)
  obtain ⟨-, -, e2, e3, -⟩ := idx5 t
  match a with
  | ⟨0, _⟩ => show win5_1.index t (0 : Fin 2) * 2048 + 1 * (j 0).val = (j 0).val; rw [e2]; omega
  | ⟨1, _⟩ => show win5_1.index t (1 : Fin 2) * 2048 + 1 * (j 1).val = (j 1).val; rw [e3]; omega

/-- What point t writes back is its band of G Wd + X of the whole arrays. -/
theorem flushed5
    (hpay : ∀ (x0 : Vec Ideal S1024x2048 .bf16) (x1 : Vec Ideal S2048x2048 .f32) (x2 : Vec Ideal S1024x2048 .bf16),
      k5_pay1 (F := Ideal) x0 x1 x2 = downOut x0 x1 x2)
    (c : Dev nD) (t : Fin cfg5.N) :
    (dat5 V c).flushed 3 t = ((cfg5.win 3).blk t).view.read (Elt Ideal)
      (downOut (V c main_call0_v5) (V c main_arg7) (V c main_call0_v4)) := by
  show (cfg5.win 3).cut (grid5.coords t) ((dat5 V c).after 3 t) = _
  rw [after5_3]
  unfold out5_3
  rw [View.canon_unit_zero hz5]
  simp only [View.ld_unit_zero (S := S1024x2048) hz5, View.ld_unit_zero (S := S2048x2048) hz5]
  refine (congrArg _ (hpay (iblk5 V c 0 t) (iblk5 V c 1 t) (iblk5 V c 2 t))).trans ?_
  rw [blk5_1]
  funext j
  obtain ⟨p, q, rfl⟩ : ∃ (p : Fin 1024) (q : Fin 2048), j = ix2 p q := ⟨j 0, j 1, eq_ix2 j⟩
  obtain ⟨-, -, -, -, -, -, e6, e7, ht⟩ := idx5 t
  have hr : t.val * 1024 + p.val < 2048 := by have := p.isLt; omega
  have hemb : ((cfg5.win 3).blk t).view.emb (ix2 p q) = ix2 (⟨t.val * 1024 + p.val, hr⟩ : Fin 2048) q :=
    funext fun a => Fin.ext (by
      match a with
      | ⟨0, _⟩ => show win5_3.index t (0 : Fin 2) * 1024 + 1 * p.val = t.val * 1024 + p.val; rw [e6]; omega
      | ⟨1, _⟩ => show win5_3.index t (1 : Fin 2) * 2048 + 1 * q.val = q.val; rw [e7]; omega)
  show downOut (iblk5 V c 0 t) (V c main_arg7) (iblk5 V c 2 t) (ix2 p q)
    = downOut (V c main_call0_v5) (V c main_arg7) (V c main_call0_v4) (((cfg5.win 3).blk t).view.emb (ix2 p q))
  rw [hemb]
  exact congrFun (row_downOut (iblk5 V c 0 t) (V c main_call0_v5) (V c main_arg7) (iblk5 V c 2 t) (V c main_call0_v4)
    p ⟨t.val * 1024 + p.val, hr⟩ (rowblk5_0 V c t p ⟨t.val * 1024 + p.val, hr⟩ rfl) (rowblk5_2 V c t p ⟨t.val * 1024 + p.val, hr⟩ rfl)) q

theorem mem_blk5 (t : Fin cfg5.N) (i : S2048x2048.Idx) :
    i ∈ ((cfg5.win 3).blk t).view.set ↔ ∀ a : Fin 2, win5_3.index t a * S1024x2048.size a ≤ (i a).val ∧ (i a).val < win5_3.index t a * S1024x2048.size a + S1024x2048.size a := by
  show i ∈ ((View.whole main_v0).slice (win5_3.rect t)).set ↔ _
  rw [View.set_slice_whole, Rect.mem_set_unit]
  exact Iff.rfl

/-- Every index of the result is in some point's band: row r is in the band of point r / 1024. -/
theorem cover5 (i : S2048x2048.Idx) : ∃ t : Fin cfg5.N, (cfg5.win 3).flush t = true ∧ i ∈ ((cfg5.win 3).blk t).view.set := by
  have hi0 : (i 0).val < 2048 := (i 0).isLt
  have hi1 : (i 1).val < 2048 := (i 1).isLt
  obtain ⟨t, ht⟩ : ∃ t : Fin cfg5.N, t.val = (i 0).val / 1024 := ⟨⟨(i 0).val / 1024, by rw [show cfg5.N = 2 from N_5]; omega⟩, rfl⟩
  refine ⟨t, flush5_3 t, ?_⟩
  rw [mem_blk5]
  obtain ⟨-, -, -, -, -, -, e6, e7, -⟩ := idx5 t
  intro a
  match a with
  | ⟨0, _⟩ => show win5_3.index t (0 : Fin 2) * 1024 ≤ (i 0).val ∧ (i 0).val < win5_3.index t (0 : Fin 2) * 1024 + 1024; rw [e6, ht]; omega
  | ⟨1, _⟩ => show win5_3.index t (1 : Fin 2) * 2048 ≤ (i 1).val ∧ (i 1).val < win5_3.index t (1 : Fin 2) * 2048 + 2048; rw [e7]; omega

/-- The result array after region 5. -/
theorem final5
    (hpay : ∀ (x0 : Vec Ideal S1024x2048 .bf16) (x1 : Vec Ideal S2048x2048 .f32) (x2 : Vec Ideal S1024x2048 .bf16),
      k5_pay1 (F := Ideal) x0 x1 x2 = downOut x0 x1 x2)
    (c : Dev nD) : (dat5 V c).arrAt 3 cfg5.N = downOut (V c main_call0_v5) (V c main_arg7) (V c main_call0_v4) :=
  (dat5 V c).arrAt_eq_of_cover 3 (downOut (V c main_call0_v5) (V c main_arg7) (V c main_call0_v4))
    (fun t _ => flushed5 V hpay c t) cover5

end Cert.KernelIdeal.Blocks

end
-- ==== Proof.KernelValue.lean ====
/-
  The idealized kernel program's result is the decoder block of its arguments. Region by region: the query array
  is H Wq; the key and value arrays are the products of the first 1024 rows of H (the host slice) with Wk and Wv; the
  probabilities are the softmax of the scaled query-key products; the post-attention states X = (P V) Wo + H; the
  gated activation G = gelu(X Wg) ⊙ (X Wu); the result G Wd + X. Each region's array is the stage of the arrays the
  region FOUND, and what it found is what the earlier regions left (or the launch contents of an argument).
  The six payload equations (each kernel body's arithmetic as a stage) are hypotheses here.
-/
import proofs.«160021_j42142219108651_2_alg».proof.Proof.KernelRun
import proofs.«160021_j42142219108651_2_alg».proof.Proof.Chain
import proofs.«160021_j42142219108651_2_alg».proof.Proof.Blocks0
import proofs.«160021_j42142219108651_2_alg».proof.Proof.Blocks1
import proofs.«160021_j42142219108651_2_alg».proof.Proof.Blocks2
import proofs.«160021_j42142219108651_2_alg».proof.Proof.Blocks3
import proofs.«160021_j42142219108651_2_alg».proof.Proof.Blocks4
import proofs.«160021_j42142219108651_2_alg».proof.Proof.Blocks5

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Decoder Cert.KernelIdeal.Chain Cert.KernelIdeal.Blocks

/-- The slice of rows 0 … 1023 is the top 1024 rows. -/
theorem slice_top (X : S2048x2048.Idx → EReal) :
    extractStridedSlice S1024x2048 ![0, 0] X slices_S2048x2048_S1024x2048_0_0 = top (by decide : 1024 ≤ 2048) X := by
  funext j
  obtain ⟨p, q, rfl⟩ : ∃ (p : Fin 1024) (q : Fin 2048), j = ix2 p q := ⟨j 0, j 1, eq_ix2 j⟩
  show extractStridedSlice S1024x2048 ![0, 0] X slices_S2048x2048_S1024x2048_0_0 (ix2 p q) = X (ix2 (Fin.castLE (by decide : 1024 ≤ 2048) p) q)
  refine extractStridedSlice_apply _ X _ (ix2 p q) (ix2 (Fin.castLE (by decide : 1024 ≤ 2048) p) q) fun a => ?_
  match a with
  | ⟨0, _⟩ => show p.val = 0 + p.val; omega
  | ⟨1, _⟩ => show q.val = 0 + q.val; omega

variable (m : (ℓ : Loc nD τ sig) → Buf (Elt Ideal) ℓ) (ρ : Dev nD → PrngReg)
variable (s ninf c₁ c₂ one half : EReal)

/-- The payload equations of the six kernel bodies. -/
structure Payloads : Prop where
  p0 : ∀ (x0 : Vec Ideal S512x2048 .f32) (x1 : Vec Ideal S2048x2048 .f32), k0_pay1 (F := Ideal) x0 x1 = mm x0 x1
  p1k : ∀ (x0 : Vec Ideal S256x2048 .f32) (x1 : Vec Ideal S2048x2048 .f32), k1_pay2 (F := Ideal) x0 x1 = mm x0 x1
  p1v : ∀ (x0 : Vec Ideal S256x2048 .f32) (x2 : Vec Ideal S2048x2048 .f32), k1_pay3 (F := Ideal) x0 x2 = mm x0 x2
  p2 : ∀ (x0 x1 : Vec Ideal S1024x2048 .bf16), k2_pay1 (F := Ideal) x0 x1 = probs s ninf x0 x1
  p3 : ∀ (x0 : Vec Ideal S512x1024 .bf16) (x1 : Vec Ideal S1024x2048 .bf16) (x2 : Vec Ideal S2048x2048 .f32) (x3 : Vec Ideal S512x2048 .f32),
    k3_pay1 (F := Ideal) x0 x1 x2 x3 = attnOut x0 x1 x2 x3
  p4 : ∀ (x0 : Vec Ideal S512x2048 .bf16) (x1 x2 : Vec Ideal S2048x2048 .f32), k4_pay1 (F := Ideal) x0 x1 x2 = gated c₁ c₂ one half x0 x1 x2
  p5 : ∀ (x0 : Vec Ideal S1024x2048 .bf16) (x1 : Vec Ideal S2048x2048 .f32) (x2 : Vec Ideal S1024x2048 .bf16),
    k5_pay1 (F := Ideal) x0 x1 x2 = downOut x0 x1 x2

variable {s ninf c₁ c₂ one half}

/-- The result buffer at the return is the decoder block of the launch contents of the eight arguments. -/
theorem result_eq (hp : Payloads s ninf c₁ c₂ one half) (c : Dev nD) :
    W7 m ρ c (Proc.devRef .tc main_v0)
      = block (d := 2048) (n := 1024) (by decide) s ninf c₁ c₂ one half
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have hs : (V2 m ρ c main_call0_v0 : S1024x2048.Idx → EReal) = top (by decide : 1024 ≤ 2048) (m ((c : Thread nD τ).loc main_arg0)) :=
    (V2_v0 m ρ c).trans (slice_top _)
  have hQ : V3 m ρ c main_call0_v1 = mm (m ((c : Thread nD τ).loc main_arg0)) (m ((c : Thread nD τ).loc main_arg1)) := by
    rw [V3_v1, final0 (V1 m ρ) hp.p0 c, V1_arg0, V1_arg1]
  have hK : V3 m ρ c main_call0_v2_0 = mm (top (by decide : 1024 ≤ 2048) (m ((c : Thread nD τ).loc main_arg0))) (m ((c : Thread nD τ).loc main_arg2)) := by
    rw [V3_v2_0, final1k (V2 m ρ) hp.p1k c, hs, V2_arg2]
  have hV : V4 m ρ c main_call0_v2_1 = mm (top (by decide : 1024 ≤ 2048) (m ((c : Thread nD τ).loc main_arg0))) (m ((c : Thread nD τ).loc main_arg3)) := by
    rw [V4_v2_1, final1v (V2 m ρ) hp.p1v c, hs, V2_arg3]
  have hP : V4 m ρ c main_call0_v3 = probs s ninf (mm (m ((c : Thread nD τ).loc main_arg0)) (m ((c : Thread nD τ).loc main_arg1)))
      (mm (top (by decide : 1024 ≤ 2048) (m ((c : Thread nD τ).loc main_arg0))) (m ((c : Thread nD τ).loc main_arg2))) := by
    rw [V4_v3, final2 (V3 m ρ) s ninf hp.p2 c, hQ, hK]
  have hX : (dat3 (V4 m ρ) c).arrAt 4 cfg3.N = attnOut (probs s ninf (mm (m ((c : Thread nD τ).loc main_arg0)) (m ((c : Thread nD τ).loc main_arg1)))
      (mm (top (by decide : 1024 ≤ 2048) (m ((c : Thread nD τ).loc main_arg0))) (m ((c : Thread nD τ).loc main_arg2))))
      (mm (top (by decide : 1024 ≤ 2048) (m ((c : Thread nD τ).loc main_arg0))) (m ((c : Thread nD τ).loc main_arg3)))
      (m ((c : Thread nD τ).loc main_arg4)) (m ((c : Thread nD τ).loc main_arg0)) := by
    rw [final3 (V4 m ρ) hp.p3 c, hP, hV, V4_arg4, V4_arg0]
  have hG : V6 m ρ c main_call0_v5 = gated c₁ c₂ one half ((dat3 (V4 m ρ) c).arrAt 4 cfg3.N)
      (m ((c : Thread nD τ).loc main_arg5)) (m ((c : Thread nD τ).loc main_arg6)) := by
    rw [V6_v5, final4 (V5 m ρ) c₁ c₂ one half hp.p4 c, V5_v4, V5_arg5, V5_arg6]
  rw [W7_v0, final5 (V6 m ρ) hp.p5 c, hG, V6_v4, V6_arg7, hX]
  rfl

/-- Every weakly fair execution of the idealized kernel program ends with the result buffer at the decoder block of
    the arguments' launch contents, the arguments unchanged. -/
theorem run_value (hp : Payloads s ninf c₁ c₂ one half) :
    θ_run defs (onTc (τ := τ) (main (F := Ideal))) ⟨m, fun _ => 0, ρ⟩ (fun r => ∀ c : Dev nD,
      r.2.mem ((c.tc : Thread nD τ).loc main_v0)
        = block (d := 2048) (n := 1024) (by decide) s ninf c₁ c₂ one half
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ hp c), (h c).2⟩) (run (F := Ideal) m ρ)

end Cert.KernelIdeal.Whole

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«160021_j42142219108651_2_alg».proof.Proof.LibKeepdims
import proofs.«160021_j42142219108651_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.Payloads.lean ====
/-
  The six kernel bodies' stored values as stages of the decoder block.

  Every stored value is a chain of operations that, over the extended reals, are either the identity (a narrowing or
  widening of the float format; a shape cast to the same shape), a matrix product into a zero accumulator, a pointwise
  operation, or a row reduction whose result is spread back over the row. A matrix product that contracts the left
  operand's columns with the right operand's rows is the specification's `mm`; one that contracts the columns of both
  is `mmT` below (entry (p, q) is row p of the left operand times row q of the right). The softmax stage is stated once
  for any score matrix (`softmax_stage`): the row maximum and the row sum are read by the row-reduction lemmas, and the
  cast to a column followed by the broadcast reads the per-row value back at every entry of the row.
-/
import proofs.«160021_j42142219108651_2_alg».proof.Proof.Gen.KernelIdeal.Skeleton
import proofs.«160021_j42142219108651_2_alg».proof.Proof.Spec
import proofs.«160021_j42142219108651_2_alg».proof.Proof.LibDenseLayer
import proofs.«160021_j42142219108651_2_alg».proof.Proof.LibMatmulRows
import proofs.«160021_j42142219108651_2_alg».proof.Proof.LibRowReduce

noncomputable section

namespace Cert.Payloads

open Idealize.ShloMosaic Idealize.ShloMosaic.ValueIdx
open Cert.KernelIdeal Cert.KernelIdeal.Gen Cert.Decoder

/-! ## Matrix products as stages of the specification -/

/-- A matrix product into a zero accumulator, contracting the left operand's columns with the right operand's rows, is
    the product `mm`. -/
theorem matmul_eq_mm {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) :
    FloatOps.matmul d prec L R (constant ⟨2, ![A, B]⟩ .f32 0x00000000#32) = mm L R := by
  funext j
  obtain ⟨p, q, rfl⟩ : ∃ (p : Fin A) (q : Fin B), j = ix2 p q := ⟨j 0, j 1, eq_ix2 j⟩
  exact Cert.DenseLayer.matmul_rows_cols d hr hs hl0 hl1 hr0 hr1 prec L R p q

/-- The product of a matrix with the transpose of another: entry (p, q) is row p of `L` times row q of `R`. -/
def mmT {a k b : ℕ} (L : Mat a k) (R : Mat b k) : Mat a b := ofRows fun p q => dotRow (row L p) R q

/-- A matrix product into a zero accumulator, contracting the columns of both operands, is `mmT`. -/
theorem matmul_eq_mmT {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) :
    FloatOps.matmul d prec L R (constant ⟨2, ![A, B]⟩ .f32 0x00000000#32) = mmT L R := by
  funext j
  obtain ⟨p, q, rfl⟩ : ∃ (p : Fin A) (q : Fin B), j = ix2 p q := ⟨j 0, j 1, eq_ix2 j⟩
  exact Cert.MatmulRows.matmul_rows_rows d hr hs hl0 hl1 hr0 hr1 prec L R p q

/-! The five products the kernels take, each at its generated dimension record. -/

theorem mm_512 (L : FVec Ideal S512x2048 .bf16) (R : FVec Ideal S2048x2048 .bf16) :
    FloatOps.matmul dot_S512x2048_S2048x2048_S512x2048_1_0_0_1_n_n none L R (constant S512x2048 .f32 0x00000000#32) = mm L R :=
  matmul_eq_mm _ rfl rfl (fun _ _ => rfl) (fun _ _ => rfl) (fun _ _ => rfl) (fun _ _ => rfl) none L R

theorem mm_256 (L : FVec Ideal S256x2048 .bf16) (R : FVec Ideal S2048x2048 .bf16) :
    FloatOps.matmul dot_S256x2048_S2048x2048_S256x2048_1_0_0_1_n_n none L R (constant S256x2048 .f32 0x00000000#32) = mm L R :=
  matmul_eq_mm _ rfl rfl (fun _ _ => rfl) (fun _ _ => rfl) (fun _ _ => rfl) (fun _ _ => rfl) none L R

theorem mm_512k (L : FVec Ideal S512x1024 .bf16) (R : FVec Ideal S1024x2048 .bf16) :
    FloatOps.matmul dot_S512x1024_S1024x2048_S512x2048_1_0_0_1_n_n none L R (constant S512x2048 .f32 0x00000000#32) = mm L R :=
  matmul_eq_mm _ rfl rfl (fun _ _ => rfl) (fun _ _ => rfl) (fun _ _ => rfl) (fun _ _ => rfl) none L R

theorem mm_1024 (L : FVec Ideal S1024x2048 .bf16) (R : FVec Ideal S2048x2048 .bf16) :
    FloatOps.matmul dot_S1024x2048_S2048x2048_S1024x2048_1_0_0_1_n_n none L R (constant S1024x2048 .f32 0x00000000#32) = mm L R :=
  matmul_eq_mm _ rfl rfl (fun _ _ => rfl) (fun _ _ => rfl) (fun _ _ => rfl) (fun _ _ => rfl) none L R

theorem mmT_1024 (L : FVec Ideal S1024x2048 .bf16) (R : FVec Ideal S1024x2048 .bf16) :
    FloatOps.matmul dot_S1024x2048_S1024x2048_S1024x1024_1_1_0_0_n_n none L R (constant S1024x1024 .f32 0x00000000#32) = mmT L R :=
  matmul_eq_mmT _ rfl rfl (fun _ _ => rfl) (fun _ _ => rfl) (fun _ _ => rfl) (fun _ _ => rfl) none L R

/-! ## The kernels' stored values -/

/-- Kernel 0 (the query projection): `x0 · x1`. -/
theorem pay0 (x0 : Vec Ideal S512x2048 .f32) (x1 : Vec Ideal S2048x2048 .f32) :
    k0_pay1 (F := Ideal) x0 x1 = mm x0 x1 :=
  mm_512 x0 x1

/-- Kernel 1's shared left operand is its input. -/
theorem pay1_in (x0 : Vec Ideal S256x2048 .f32) : k1_pay1 (F := Ideal) x0 = x0 :=
  shapeCast_self x0 shapeCasts_S256x2048_S256x2048

/-- Kernel 1 (the key projection): `x0 · x1`. -/
theorem pay1k (x0 : Vec Ideal S256x2048 .f32) (x1 : Vec Ideal S2048x2048 .f32) :
    k1_pay2 (F := Ideal) x0 x1 = mm x0 x1 := by
  show FloatOps.matmul (F := Ideal) (φ₁ := .bf16) (φ₂ := .bf16) dot_S256x2048_S2048x2048_S256x2048_1_0_0_1_n_n none (k1_pay1 x0) x1
    (constant S256x2048 .f32 0x00000000#32) = mm x0 x1
  rw [pay1_in]
  exact mm_256 x0 x1

/-- Kernel 1 (the value projection): `x0 · x2`. -/
theorem pay1v (x0 : Vec Ideal S256x2048 .f32) (x2 : Vec Ideal S2048x2048 .f32) :
    k1_pay3 (F := Ideal) x0 x2 = mm x0 x2 := by
  show FloatOps.matmul (F := Ideal) (φ₁ := .bf16) (φ₂ := .bf16) dot_S256x2048_S2048x2048_S256x2048_1_0_0_1_n_n none (k1_pay1 x0) x2
    (constant S256x2048 .f32 0x00000000#32) = mm x0 x2
  rw [pay1_in]
  exact mm_256 x0 x2

/-- Kernel 3 (attention output, projection, residual): `(x0 · x1) · x2 + x3`. -/
theorem pay3 (x0 : Vec Ideal S512x1024 .bf16) (x1 : Vec Ideal S1024x2048 .bf16) (x2 : Vec Ideal S2048x2048 .f32)
    (x3 : Vec Ideal S512x2048 .f32) : k3_pay1 (F := Ideal) x0 x1 x2 x3 = attnOut x0 x1 x2 x3 := by
  show addf (F := Ideal) (φ := .f32)
      (FloatOps.matmul (F := Ideal) (φ₁ := .bf16) (φ₂ := .bf16) dot_S512x2048_S2048x2048_S512x2048_1_0_0_1_n_n none
        (truncf .bf16 (FloatOps.matmul (F := Ideal) (φ₁ := .bf16) (φ₂ := .bf16) dot_S512x1024_S1024x2048_S512x2048_1_0_0_1_n_n none
          (shapeCast S512x1024 x0 shapeCasts_S512x1024_S512x1024) (shapeCast S1024x2048 x1 shapeCasts_S1024x2048_S1024x2048)
          (constant S512x2048 .f32 0x00000000#32)) bitsLt_bf16_f32)
        x2 (constant S512x2048 .f32 0x00000000#32))
      x3 = attnOut x0 x1 x2 x3
  rw [shapeCast_self, shapeCast_self, mm_512k, mm_512]
  funext j
  obtain ⟨p, q, rfl⟩ : ∃ (p : Fin 512) (q : Fin 2048), j = ix2 p q := ⟨j 0, j 1, eq_ix2 j⟩
  rfl

/-- Kernel 5 (down projection, residual): `x0 · x1 + x2`. -/
theorem pay5 (x0 : Vec Ideal S1024x2048 .bf16) (x1 : Vec Ideal S2048x2048 .f32) (x2 : Vec Ideal S1024x2048 .bf16) :
    k5_pay1 (F := Ideal) x0 x1 x2 = downOut x0 x1 x2 := by
  show addf (F := Ideal) (φ := .f32)
      (FloatOps.matmul (F := Ideal) (φ₁ := .bf16) (φ₂ := .bf16) dot_S1024x2048_S2048x2048_S1024x2048_1_0_0_1_n_n none
        (shapeCast S1024x2048 x0 shapeCasts_S1024x2048_S1024x2048) x1 (constant S1024x2048 .f32 0x00000000#32))
      (shapeCast S1024x2048 x2 shapeCasts_S1024x2048_S1024x2048) = downOut x0 x1 x2
  rw [shapeCast_self, shapeCast_self, mm_1024]
  funext j
  obtain ⟨p, q, rfl⟩ : ∃ (p : Fin 1024) (q : Fin 2048), j = ix2 p q := ⟨j 0, j 1, eq_ix2 j⟩
  rfl

/-! ## The softmax stage, for any matrix of scaled scores -/

/-- Exponentials of scores less a per-row value `m`, divided by their row sums. `KM` is any matrix that reads `m p` at
    every entry of row p (the per-row value spread over the row); the row sum is the add reduction over axis 1, cast to
    a column and broadcast back. -/
theorem exp_div_rowSum {a b : ℕ} (S KM : FVec Ideal ⟨2, ![a, b]⟩ .f32) (m : Fin a → EReal)
    (hKM : ∀ (p : Fin a) (c : Fin b), KM (ix2 p c) = m p) (zb : BitVec 32)
    (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hadd : zb = FKind.add.neutral .f32 hφ) (p : Fin a) (c : Fin b) :
    divf (exp (subf S KM))
        (broadcastTo ⟨2, ![a, b]⟩
          (shapeCast ⟨2, ![a, 1]⟩ (multiReduction .add [1] ⟨1, ![a]⟩ (exp (subf S KM)) zb hred hφ hadd) hc) hb)
        (ix2 p c)
      = Ideal.div (Ideal.exp (S (ix2 p c) - m p)) (∑ c' : Fin b, Ideal.exp (S (ix2 p c') - m p)) := by
  have hE : ∀ c' : Fin b, exp (subf S KM) (ix2 p c') = Ideal.exp (S (ix2 p c') - m p) := fun c' =>
    congrArg (fun t => Ideal.exp (S (ix2 p c') - t)) (hKM p c')
  exact congrArg₂ Ideal.div (hE c)
    ((Cert.RowReduce.keepdims_apply _ hc hb p c).trans
      ((Cert.RowReduce.rowSum_apply (exp (subf S KM)) zb hred hφ hadd p).trans (Finset.sum_congr rfl fun c' _ => hE c')))

/-- The row maximum of the scaled scores, taken from the accumulator's value and then with the splat of the same value,
    cast to a column and broadcast back: at every entry of row p it is the maximum the specification's softmax takes. -/
theorem rowMax_spread {a b : ℕ} (M : FVec Ideal ⟨2, ![a, b]⟩ .f32) (s : EReal) (nb : BitVec 32)
    (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : nb = FKind.maximumf.neutral .f32 hφ) (p : Fin a) (c : Fin b) :
    broadcastTo ⟨2, ![a, b]⟩
        (shapeCast ⟨2, ![a, 1]⟩
          (maximumf (broadcast ⟨1, ![a]⟩ (Scalar.ofBits (F := Ideal) .f32 nb))
            (multiReduction .maximumf [1] ⟨1, ![a]⟩ (mulf M (broadcast ⟨2, ![a, b]⟩ s)) nb hred hφ hmax)) hc) hb
        (ix2 p c)
      = max (Ideal.ofBits .f32 nb) (Finset.univ.fold max (Ideal.ofBits .f32 nb) fun a' : Fin b => M (ix2 p a') * s) :=
  (Cert.RowReduce.keepdims_apply _ hc hb p c).trans
    (congrArg (max (Ideal.ofBits .f32 nb))
      (Cert.RowReduce.rowMax_apply (mulf M (broadcast ⟨2, ![a, b]⟩ s)) nb hred hφ hmax p))

/-- The softmax stage on a score matrix `M` scaled by `s`: entry (p, c) is the specification's softmax of row p. -/
theorem softmax_stage {a b : ℕ} (M : FVec Ideal ⟨2, ![a, b]⟩ .f32) (s : EReal) (nb zb : BitVec 32)
    (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : nb = FKind.maximumf.neutral .f32 hφ) (hadd : zb = FKind.add.neutral .f32 hφ)
    (p : Fin a) (c : Fin b) :
    divf
        (exp (subf (mulf M (broadcast ⟨2, ![a, b]⟩ s))
          (broadcastTo ⟨2, ![a, b]⟩
            (shapeCast ⟨2, ![a, 1]⟩
              (maximumf (broadcast ⟨1, ![a]⟩ (Scalar.ofBits (F := Ideal) .f32 nb))
                (multiReduction .maximumf [1] ⟨1, ![a]⟩ (mulf M (broadcast ⟨2, ![a, b]⟩ s)) nb hred hφ hmax)) hc) hb)))
        (broadcastTo ⟨2, ![a, b]⟩
          (shapeCast ⟨2, ![a, 1]⟩
            (multiReduction .add [1] ⟨1, ![a]⟩
              (exp (subf (mulf M (broadcast ⟨2, ![a, b]⟩ s))
                (broadcastTo ⟨2, ![a, b]⟩
                  (shapeCast ⟨2, ![a, 1]⟩
                    (maximumf (broadcast ⟨1, ![a]⟩ (Scalar.ofBits (F := Ideal) .f32 nb))
                      (multiReduction .maximumf [1] ⟨1, ![a]⟩ (mulf M (broadcast ⟨2, ![a, b]⟩ s)) nb hred hφ hmax)) hc) hb)))
              zb hred hφ hadd) hc) hb)
        (ix2 p c)
      = softmaxRow s (Ideal.ofBits .f32 nb) (fun a' => M (ix2 p a')) c :=
  exp_div_rowSum (mulf M (broadcast ⟨2, ![a, b]⟩ s)) _
    (fun p => max (Ideal.ofBits .f32 nb) (Finset.univ.fold max (Ideal.ofBits .f32 nb) fun a' : Fin b => M (ix2 p a') * s))
    (fun p c => rowMax_spread M s nb hred hc hb hφ hmax p c) zb hred hc hb hφ hadd p c

/-- Kernel 2 (attention probabilities): the softmax over the keys of the scaled products of the rows of `x0` with the
    rows of `x1`. -/
theorem pay2 (x0 : Vec Ideal S1024x2048 .bf16) (x1 : Vec Ideal S1024x2048 .bf16) :
    k2_pay1 (F := Ideal) x0 x1 = probs (Ideal.ofBits .f32 0x3CB504F3#32) (Ideal.ofBits .f32 0xFF800000#32) x0 x1 := by
  have hM : FloatOps.matmul (F := Ideal) (φ₁ := .bf16) (φ₂ := .bf16) dot_S1024x2048_S1024x2048_S1024x1024_1_1_0_0_n_n none
      (shapeCast S1024x2048 x0 shapeCasts_S1024x2048_S1024x2048) (shapeCast S1024x2048 x1 shapeCasts_S1024x2048_S1024x2048)
      (constant S1024x1024 .f32 0x00000000#32) = mmT x0 x1 := by
    rw [shapeCast_self, shapeCast_self]
    exact mmT_1024 x0 x1
  funext j
  obtain ⟨p, c, rfl⟩ : ∃ (p : Fin 1024) (c : Fin 1024), j = ix2 p c := ⟨j 0, j 1, eq_ix2 j⟩
  refine (softmax_stage (a := 1024) (b := 1024)
    (FloatOps.matmul (F := Ideal) (φ₁ := .bf16) (φ₂ := .bf16) dot_S1024x2048_S1024x2048_S1024x1024_1_1_0_0_n_n none
      (shapeCast S1024x2048 x0 shapeCasts_S1024x2048_S1024x2048) (shapeCast S1024x2048 x1 shapeCasts_S1024x2048_S1024x2048)
      (constant S1024x1024 .f32 0x00000000#32))
    (Ideal.ofBits .f32 0x3CB504F3#32) 0xFF800000#32 0x00000000#32 reduces_S1024x1024_S1024 shapeCasts_S1024_S1024x1
    broadcasts_S1024x1_S1024x1024 (.inl rfl) rfl rfl p c).trans ?_
  rw [hM]
  rfl

/-- Kernel 4 (the gated activation): `gelu(x0 · x1) ⊙ (x0 · x2)`. -/
theorem pay4 (x0 : Vec Ideal S512x2048 .bf16) (x1 x2 : Vec Ideal S2048x2048 .f32) :
    k4_pay1 (F := Ideal) x0 x1 x2
      = gated (Ideal.ofBits .f32 0x3D372713#32) (Ideal.ofBits .f32 0x3F4C422A#32) (Ideal.ofBits .f32 0x3F800000#32)
          (Ideal.ofBits .f32 0x3F000000#32) x0 x1 x2 := by
  have hg : FloatOps.matmul (F := Ideal) (φ₁ := .bf16) (φ₂ := .bf16) dot_S512x2048_S2048x2048_S512x2048_1_0_0_1_n_n none
      (shapeCast S512x2048 x0 shapeCasts_S512x2048_S512x2048) x1 (constant S512x2048 .f32 0x00000000#32) = mm x0 x1 := by
    rw [shapeCast_self]
    exact mm_512 x0 x1
  have hu : FloatOps.matmul (F := Ideal) (φ₁ := .bf16) (φ₂ := .bf16) dot_S512x2048_S2048x2048_S512x2048_1_0_0_1_n_n none
      (shapeCast S512x2048 x0 shapeCasts_S512x2048_S512x2048) x2 (constant S512x2048 .f32 0x00000000#32) = mm x0 x2 := by
    rw [shapeCast_self]
    exact mm_512 x0 x2
  funext j
  obtain ⟨p, q, rfl⟩ : ∃ (p : Fin 512) (q : Fin 2048), j = ix2 p q := ⟨j 0, j 1, eq_ix2 j⟩
  show gelu (Ideal.ofBits .f32 0x3D372713#32) (Ideal.ofBits .f32 0x3F4C422A#32) (Ideal.ofBits .f32 0x3F800000#32)
        (Ideal.ofBits .f32 0x3F000000#32)
        (FloatOps.matmul (F := Ideal) (φ₁ := .bf16) (φ₂ := .bf16) dot_S512x2048_S2048x2048_S512x2048_1_0_0_1_n_n none
          (shapeCast S512x2048 x0 shapeCasts_S512x2048_S512x2048) x1 (constant S512x2048 .f32 0x00000000#32) (ix2 p q))
      * FloatOps.matmul (F := Ideal) (φ₁ := .bf16) (φ₂ := .bf16) dot_S512x2048_S2048x2048_S512x2048_1_0_0_1_n_n none
          (shapeCast S512x2048 x0 shapeCasts_S512x2048_S512x2048) x2 (constant S512x2048 .f32 0x00000000#32) (ix2 p q) = _
  rw [hg, hu]
  rfl

end Cert.Payloads

end
-- ==== Proof.RefValue.lean ====
/-
  The reference program's value is the decoder block of the specification.

  The reference computes, for hidden states H and weights Wq Wk Wv Wo Wg Wu Wd,
    Q = H Wq, K = H Wk, V = H Wv on all rows; it keeps the first 1024 rows of K and V, transposes that band of K and
    contracts Q with it; the scaled scores go through a softmax written as a maximum (taken from −∞, and once more
    against −∞), a subtraction, an exponential, a sum (taken from 0) and a quotient; then the value product, the output
    projection and the residual, the gated tanh-gelu layer, the down projection and the second residual.
  Every change of float format is the identity on the extended reals. The steps below read each stage at an entry
  (r, c) and compare it with the specification's stage:
    • a product of two matrices read at an entry is the specification's `mm` (`dot_eq_mm`);
    • the first rows of a product are the product of the first rows (`top_mm`);
    • the transposed band of K read at (k, c) is K at (c, k), so the contraction is the product of a row of Q with a
      ROW of the band (`dotRow`);
    • the row maximum is the fold of max over the row, the row sum is 0 plus the sum over the row;
    • x·x·x is associated to the left in the reference and to the right in the specification, and the two residual
      sums have their terms in the other order: multiplication and addition of extended reals commute.
-/
import proofs.«160021_j42142219108651_2_alg».proof.Proof.Gen.ReferenceIdeal.Read
import proofs.«160021_j42142219108651_2_alg».proof.Proof.Spec
import proofs.«160021_j42142219108651_2_alg».proof.Proof.LibMinReduce
import Idealize.ShloMosaic.PureOps.Reduce
import Idealize.ShloMosaic.PureOps.Ideal.Laws

noncomputable section

namespace Cert.RefValue

open Cert.ReferenceIdeal Cert.ReferenceIdeal.Gen Cert.ReferenceIdeal.Read Cert.Decoder Idealize.ShloMosaic Idealize.ShloMosaic.ValueIdx

/-- A 2048 × 2048 argument of the reference. -/
abbrev Arr : Type := (⟨S2048x2048, .f32⟩ : BufTy).Contents (Elt Ideal)

/-- The score scale, −∞, the two gelu constants, 1 and ½, as the reference spells them. -/
abbrev cS : EReal := Ideal.ofBits .f32 0x3CB504F3#32
abbrev cNinf : EReal := Ideal.ofBits .f32 0xFF800000#32
abbrev cG1 : EReal := Ideal.ofBits .f32 0x3D372713#32
abbrev cG2 : EReal := Ideal.ofBits .f32 0x3F4C422A#32
abbrev cOne : EReal := Ideal.ofBits .f32 0x3F800000#32
abbrev cHalf : EReal := Ideal.ofBits .f32 0x3F000000#32

theorem le1024 : 1024 ≤ 2048 := by decide

/-- Two rank-2 indices with the same coordinates are equal. -/
theorem idx2_ext {n0 n1 : ℕ} (i j : (⟨2, ![n0, n1]⟩ : Shape).Idx) (h0 : (i 0).val = (j 0).val) (h1 : (i 1).val = (j 1).val) :
    i = j :=
  funext fun a => Fin.ext (by match a with | ⟨0, _⟩ => exact h0 | ⟨1, _⟩ => exact h1)

/-- An array whose entry (p, q) is the sum over j of L(p, j) · R(j, q) is the product `mm L R`. -/
theorem dot_eq_mm {a k b : ℕ} (L : Mat a k) (R : Mat k b) (D : Mat a b)
    (lidx : (⟨2, ![a, b]⟩ : Shape).Idx → Fin k → (⟨2, ![a, k]⟩ : Shape).Idx)
    (ridx : (⟨2, ![a, b]⟩ : Shape).Idx → Fin k → (⟨2, ![k, b]⟩ : Shape).Idx)
    (hl : ∀ p q j, lidx (ix2 p q) j = ix2 p j) (hr : ∀ p q j, ridx (ix2 p q) j = ix2 j q)
    (hD : ∀ i, D i = ∑ j : Fin k, L (lidx i j) * R (ridx i j)) : D = mm L R := by
  funext i
  obtain ⟨p, q, rfl⟩ : ∃ (p : Fin a) (q : Fin b), i = ix2 p q := ⟨i 0, i 1, eq_ix2 i⟩
  refine (hD _).trans ?_
  show _ = ∑ j : Fin k, L (ix2 p j) * R (ix2 j q)
  refine Finset.sum_congr rfl fun j _ => ?_
  rw [hl, hr]

/-- The first rows of a product are the product of the first rows. -/
theorem top_mm {a n k b : ℕ} (h : a ≤ n) (L : Mat n k) (R : Mat k b) : top h (mm L R) = mm (top h L) R := rfl

/-! ## Q, K, V on all rows -/

theorem v5_eq (x0 x1 : Arr) : val_main_v5 (F := Ideal) x0 x1 = mm x0 x1 :=
  dot_eq_mm (a := 2048) (k := 2048) (b := 2048) x0 x1 _ lidx_main_v4 ridx_main_v4
    (fun _ _ _ => idx2_ext _ _ rfl rfl) (fun _ _ _ => idx2_ext _ _ rfl rfl) (val_main_v4_apply x0 x1)

theorem v11_eq (x0 x2 : Arr) : val_main_v11 (F := Ideal) x0 x2 = mm x0 x2 :=
  dot_eq_mm (a := 2048) (k := 2048) (b := 2048) x0 x2 _ lidx_main_v10 ridx_main_v10
    (fun _ _ _ => idx2_ext _ _ rfl rfl) (fun _ _ _ => idx2_ext _ _ rfl rfl) (val_main_v10_apply x0 x2)

theorem v17_eq (x0 x3 : Arr) : val_main_v17 (F := Ideal) x0 x3 = mm x0 x3 :=
  dot_eq_mm (a := 2048) (k := 2048) (b := 2048) x0 x3 _ lidx_main_v16 ridx_main_v16
    (fun _ _ _ => idx2_ext _ _ rfl rfl) (fun _ _ _ => idx2_ext _ _ rfl rfl) (val_main_v16_apply x0 x3)

/-! ## The attention probabilities -/

/-- The transposed band of K at (k, c) is K at (c, k). -/
theorem v25_apply (x0 x2 : Arr) (k : Fin 2048) (c : Fin 1024) :
    val_main_v25 (F := Ideal) x0 x2 (ix2 k c) = val_main_v11 (F := Ideal) x0 x2 (ix2 (Fin.castLE le1024 c) k) := by
  refine (val_main_v19_apply x0 x2 (ix2 k c)).trans ?_
  refine (val_main_v18_apply x0 x2 _).trans ?_
  exact congrArg _ (idx2_ext _ _ rfl rfl)

/-- The scaled score at (r, c): row r of Q times row c of the band of K, times the scale. -/
theorem v32_apply (x0 x1 x2 : Arr) (r : Fin 2048) (c : Fin 1024) :
    val_main_v32 (F := Ideal) x0 x1 x2 (ix2 r c)
      = dotRow (row (val_main_v5 (F := Ideal) x0 x1) r) (top le1024 (val_main_v11 (F := Ideal) x0 x2)) c * cS := by
  show val_main_v26 (F := Ideal) x0 x1 x2 (ix2 r c) * val_main_v29 (F := Ideal) (ix2 r c) = _
  rw [val_main_v26_apply, val_main_v29_apply]
  refine congrArg (· * cS) (Finset.sum_congr rfl fun k _ => ?_)
  rw [show lidx_main_v26 (ix2 r c) k = ix2 r k from idx2_ext _ _ rfl rfl,
    show ridx_main_v26 (ix2 r c) k = ix2 k c from idx2_ext _ _ rfl rfl, v25_apply]
  rfl

/-- The fold of the float maximum over a row is the fold of max. -/
theorem fold_maximumf_eq {n : ℕ} (b : EReal) (g : Fin n → EReal) :
    Finset.fold (FloatOps.maximumf (F := Ideal) (φ := .f32)) b g Finset.univ = Finset.fold max b g Finset.univ := rfl

/-- The row maximum: max of −∞ and the fold of max, from −∞, over the row. -/
theorem v35_apply (x0 x1 x2 : Arr) (r : Fin 2048) :
    val_main_v35 (F := Ideal) x0 x1 x2 (ix1 r)
      = max cNinf (Finset.univ.fold max cNinf fun c : Fin 1024 => val_main_v32 (F := Ideal) x0 x1 x2 (ix2 r c)) := by
  rw [val_main_v35_apply, val_main_v34_apply, val_main_cst_1_apply, Ideal.maximumf_def, Ideal.ofBits_def]
  refine congrArg (max cNinf) ?_
  have hR : S2048x1024.Reduces [1] S2048 := by decide
  unfold val_main_v33
  refine (Host.reduce_eq_fold_single (FloatOps.maximumf (F := Ideal) (φ := .f32)) _ _ reducesTo_S2048x1024_S2048_d1 hR h_S_ (ix1 r)).trans ?_
  rw [val_main_cst_0_apply, Ideal.ofBits_def]
  refine (fold_maximumf_eq _ _).trans ?_
  have hfun : (val_main_v32 (F := Ideal) x0 x1 x2 ∘ hR.lift (ix1 r)) = fun c : Fin 1024 => val_main_v32 (F := Ideal) x0 x1 x2 (ix2 r c) :=
    funext fun c => congrArg (val_main_v32 (F := Ideal) x0 x1 x2) (Cert.MinReduce.lift_cols hR r c)
  rw [hfun]
  rfl

/-- The row sum of the exponentials: 0 plus the sum over the row. -/
theorem v40_apply' (x0 x1 x2 : Arr) (r : Fin 2048) :
    val_main_v40 (F := Ideal) x0 x1 x2 (ix1 r) = ∑ c : Fin 1024, val_main_v39 (F := Ideal) x0 x1 x2 (ix2 r c) := by
  rw [val_main_v40_apply]
  refine (congrArg (· + _) Ideal.ofBits_zero_f32).trans ((zero_add _).trans ?_)
  refine Finset.sum_congr rfl fun c _ => congrArg _ (idx2_ext _ _ rfl rfl)

/-- The subtracted maximum at (r, c) is the row maximum of row r. -/
theorem v37_apply' (x0 x1 x2 : Arr) (r : Fin 2048) (c : Fin 1024) :
    val_main_v37 (F := Ideal) x0 x1 x2 (ix2 r c) = val_main_v35 (F := Ideal) x0 x1 x2 (ix1 r) := by
  rw [val_main_v37_apply, val_main_v36_apply]
  exact congrArg _ (funext fun a => Fin.ext (by match a with | ⟨0, _⟩ => rfl))

/-- The divisor at (r, c) is the row sum of row r. -/
theorem v42_apply' (x0 x1 x2 : Arr) (r : Fin 2048) (c : Fin 1024) :
    val_main_v42 (F := Ideal) x0 x1 x2 (ix2 r c) = val_main_v40 (F := Ideal) x0 x1 x2 (ix1 r) := by
  rw [val_main_v42_apply, val_main_v41_apply]
  exact congrArg _ (funext fun a => Fin.ext (by match a with | ⟨0, _⟩ => rfl))

/-- The exponential at (r, c). -/
theorem v39_apply' (x0 x1 x2 : Arr) (r : Fin 2048) (c : Fin 1024) :
    val_main_v39 (F := Ideal) x0 x1 x2 (ix2 r c)
      = Ideal.exp (val_main_v32 (F := Ideal) x0 x1 x2 (ix2 r c) - val_main_v35 (F := Ideal) x0 x1 x2 (ix1 r)) := by
  show Ideal.exp (val_main_v32 (F := Ideal) x0 x1 x2 (ix2 r c) - val_main_v37 (F := Ideal) x0 x1 x2 (ix2 r c)) = _
  rw [v37_apply']

/-- The specification's softmax, written out. -/
theorem softmaxRow_eq {n : ℕ} (s ninf : EReal) (x : Fin n → EReal) (c : Fin n) :
    Ideal.div (Ideal.exp (x c * s - max ninf (Finset.univ.fold max ninf fun a => x a * s)))
      (∑ a' : Fin n, Ideal.exp (x a' * s - max ninf (Finset.univ.fold max ninf fun a => x a * s))) = softmaxRow s ninf x c := rfl

/-- The specification's probabilities at an entry. -/
theorem probs_apply {a d n : ℕ} (s ninf : EReal) (Q : Mat a d) (K : Mat n d) (p : Fin a) (c : Fin n) :
    probs s ninf Q K (ix2 p c) = softmaxRow s ninf (fun a' => dotRow (row Q p) K a') c := rfl

/-- The probabilities are the specification's, of Q and the band of K. -/
theorem v45_eq (x0 x1 x2 : Arr) :
    val_main_v45 (F := Ideal) x0 x1 x2
      = probs cS cNinf (val_main_v5 (F := Ideal) x0 x1) (top le1024 (val_main_v11 (F := Ideal) x0 x2)) := by
  funext i
  obtain ⟨r, c, rfl⟩ : ∃ (r : Fin 2048) (c : Fin 1024), i = ix2 r c := ⟨i 0, i 1, eq_ix2 i⟩
  rw [val_main_v45_apply, val_main_v44_apply, val_main_v43_apply, Ideal.extf_def, Ideal.truncf_def, Ideal.hostDivf_def,
    v42_apply', v40_apply', probs_apply]
  simp only [v39_apply', v35_apply, v32_apply]
  exact softmaxRow_eq cS cNinf
    (fun a' => dotRow (row (val_main_v5 (F := Ideal) x0 x1) r) (top le1024 (val_main_v11 (F := Ideal) x0 x2)) a') c

/-! ## The attention output, projected, plus the residual -/

/-- The band of V at (m, k) is V at (m, k): the first rows of V. -/
theorem v51_eq (x0 x3 : Arr) : val_main_v51 (F := Ideal) x0 x3 = top le1024 (val_main_v17 (F := Ideal) x0 x3) := by
  funext i
  obtain ⟨m, k, rfl⟩ : ∃ (m : Fin 1024) (k : Fin 2048), i = ix2 m k := ⟨i 0, i 1, eq_ix2 i⟩
  show _ = val_main_v17 (F := Ideal) x0 x3 (ix2 (Fin.castLE le1024 m) k)
  refine (val_main_v46_apply x0 x3 (ix2 m k)).trans ?_
  exact congrArg _ (idx2_ext _ _ rfl rfl)

theorem v52_eq (x0 x1 x2 x3 : Arr) :
    val_main_v52 (F := Ideal) x0 x1 x2 x3 = mm (val_main_v45 (F := Ideal) x0 x1 x2) (val_main_v51 (F := Ideal) x0 x3) :=
  dot_eq_mm (a := 2048) (k := 1024) (b := 2048) (val_main_v45 (F := Ideal) x0 x1 x2) (val_main_v51 (F := Ideal) x0 x3) _
    lidx_main_v52 ridx_main_v52
    (fun _ _ _ => idx2_ext _ _ rfl rfl) (fun _ _ _ => idx2_ext _ _ rfl rfl) (val_main_v52_apply x0 x1 x2 x3)

theorem v59_eq (x0 x1 x2 x3 x4 : Arr) :
    val_main_v59 (F := Ideal) x0 x1 x2 x3 x4 = mm (val_main_v52 (F := Ideal) x0 x1 x2 x3) x4 :=
  dot_eq_mm (a := 2048) (k := 2048) (b := 2048) (val_main_v52 (F := Ideal) x0 x1 x2 x3) x4 _
    lidx_main_v59 ridx_main_v59
    (fun _ _ _ => idx2_ext _ _ rfl rfl) (fun _ _ _ => idx2_ext _ _ rfl rfl) (val_main_v59_apply x0 x1 x2 x3 x4)

/-- The specification's attention stage is two products and the residual. -/
theorem attnOut_apply {a n d : ℕ} (P : Mat a n) (V : Mat n d) (Wo : Mat d d) (H : Mat a d) (p : Fin a) (q : Fin d) :
    attnOut P V Wo H (ix2 p q) = mm (mm P V) Wo (ix2 p q) + H (ix2 p q) := rfl

theorem v65_eq (x0 x1 x2 x3 x4 : Arr) :
    val_main_v65 (F := Ideal) x0 x1 x2 x3 x4
      = attnOut (val_main_v45 (F := Ideal) x0 x1 x2) (top le1024 (val_main_v17 (F := Ideal) x0 x3)) x4 x0 := by
  funext i
  obtain ⟨p, q, rfl⟩ : ∃ (p q : Fin 2048), i = ix2 p q := ⟨i 0, i 1, eq_ix2 i⟩
  show x0 (ix2 p q) + val_main_v59 (F := Ideal) x0 x1 x2 x3 x4 (ix2 p q) = _
  rw [add_comm, v59_eq, v52_eq, v51_eq, attnOut_apply]

/-! ## The gated layer -/

theorem v71_eq (x0 x1 x2 x3 x4 x5 : Arr) :
    val_main_v71 (F := Ideal) x0 x1 x2 x3 x4 x5 = mm (val_main_v65 (F := Ideal) x0 x1 x2 x3 x4) x5 :=
  dot_eq_mm (a := 2048) (k := 2048) (b := 2048) (val_main_v65 (F := Ideal) x0 x1 x2 x3 x4) x5 _
    lidx_main_v71 ridx_main_v71
    (fun _ _ _ => idx2_ext _ _ rfl rfl) (fun _ _ _ => idx2_ext _ _ rfl rfl) (val_main_v71_apply x0 x1 x2 x3 x4 x5)

theorem v78_eq (x0 x1 x2 x3 x4 x6 : Arr) :
    val_main_v78 (F := Ideal) x0 x1 x2 x3 x4 x6 = mm (val_main_v65 (F := Ideal) x0 x1 x2 x3 x4) x6 :=
  dot_eq_mm (a := 2048) (k := 2048) (b := 2048) (val_main_v65 (F := Ideal) x0 x1 x2 x3 x4) x6 _
    lidx_main_v78 ridx_main_v78
    (fun _ _ _ => idx2_ext _ _ rfl rfl) (fun _ _ _ => idx2_ext _ _ rfl rfl) (val_main_v78_apply x0 x1 x2 x3 x4 x6)

/-- The reference's gelu, with x·x·x associated to the left, is the specification's. -/
theorem gelu_ref (c₁ c₂ one half g : EReal) :
    g * (half * (one + Ideal.tanh (c₂ * (g + c₁ * (g * g * g))))) = gelu c₁ c₂ one half g := by
  unfold gelu; rw [mul_comm (g * g) g]

/-- The specification's gated stage from the two products. -/
theorem gated_apply {a d : ℕ} (c₁ c₂ one half : EReal) (X : Mat a d) (Wg Wu : Mat d d) (p : Fin a) (q : Fin d) :
    gated c₁ c₂ one half X Wg Wu (ix2 p q) = gelu c₁ c₂ one half (mm X Wg (ix2 p q)) * mm X Wu (ix2 p q) := rfl

theorem v98_eq (x0 x1 x2 x3 x4 x5 x6 : Arr) :
    val_main_v98 (F := Ideal) x0 x1 x2 x3 x4 x5 x6
      = gated cG1 cG2 cOne cHalf (val_main_v65 (F := Ideal) x0 x1 x2 x3 x4) x5 x6 := by
  funext i
  obtain ⟨p, q, rfl⟩ : ∃ (p q : Fin 2048), i = ix2 p q := ⟨i 0, i 1, eq_ix2 i⟩
  show val_main_v71 (F := Ideal) x0 x1 x2 x3 x4 x5 (ix2 p q)
      * (val_main_v91 (F := Ideal) (ix2 p q) * (val_main_v89 (F := Ideal) (ix2 p q)
        + Ideal.tanh (val_main_v86 (F := Ideal) (ix2 p q) * (val_main_v71 (F := Ideal) x0 x1 x2 x3 x4 x5 (ix2 p q)
          + val_main_v83 (F := Ideal) (ix2 p q) * (val_main_v71 (F := Ideal) x0 x1 x2 x3 x4 x5 (ix2 p q)
            * val_main_v71 (F := Ideal) x0 x1 x2 x3 x4 x5 (ix2 p q) * val_main_v71 (F := Ideal) x0 x1 x2 x3 x4 x5 (ix2 p q))))))
      * val_main_v78 (F := Ideal) x0 x1 x2 x3 x4 x6 (ix2 p q) = _
  rw [val_main_v91_apply, val_main_v89_apply, val_main_v86_apply, val_main_v83_apply, v71_eq, v78_eq, gated_apply]
  exact congrArg (· * _) (gelu_ref cG1 cG2 cOne cHalf _)

/-! ## The down projection plus the residual -/

theorem v104_eq (x0 x1 x2 x3 x4 x5 x6 x7 : Arr) :
    val_main_v104 (F := Ideal) x0 x1 x2 x3 x4 x5 x6 x7 = mm (val_main_v98 (F := Ideal) x0 x1 x2 x3 x4 x5 x6) x7 :=
  dot_eq_mm (a := 2048) (k := 2048) (b := 2048) (val_main_v98 (F := Ideal) x0 x1 x2 x3 x4 x5 x6) x7 _
    lidx_main_v104 ridx_main_v104
    (fun _ _ _ => idx2_ext _ _ rfl rfl) (fun _ _ _ => idx2_ext _ _ rfl rfl) (val_main_v104_apply x0 x1 x2 x3 x4 x5 x6 x7)

/-- The specification's last stage is a product and the residual. -/
theorem downOut_apply {a d : ℕ} (G : Mat a d) (Wd : Mat d d) (X : Mat a d) (p : Fin a) (q : Fin d) :
    downOut G Wd X (ix2 p q) = mm G Wd (ix2 p q) + X (ix2 p q) := rfl

theorem v109_eq (x0 x1 x2 x3 x4 x5 x6 x7 : Arr) :
    val_main_v109 (F := Ideal) x0 x1 x2 x3 x4 x5 x6 x7
      = downOut (val_main_v98 (F := Ideal) x0 x1 x2 x3 x4 x5 x6) x7 (val_main_v65 (F := Ideal) x0 x1 x2 x3 x4) := by
  funext i
  obtain ⟨p, q, rfl⟩ : ∃ (p q : Fin 2048), i = ix2 p q := ⟨i 0, i 1, eq_ix2 i⟩
  show val_main_v65 (F := Ideal) x0 x1 x2 x3 x4 (ix2 p q) + val_main_v104 (F := Ideal) x0 x1 x2 x3 x4 x5 x6 x7 (ix2 p q) = _
  rw [add_comm, v104_eq, downOut_apply]

/-! ## The whole block -/

/-- The reference's result is the specification's block of its eight arguments. -/
theorem ref_eq (x0 x1 x2 x3 x4 x5 x6 x7 : (⟨Cert.ReferenceIdeal.S2048x2048, .f32⟩ : BufTy).Contents (Elt Ideal)) :
    Cert.ReferenceIdeal.Read.val_main_v109 (F := Ideal) x0 x1 x2 x3 x4 x5 x6 x7
      = Cert.Decoder.block (d := 2048) (n := 1024) (by decide) (Ideal.ofBits .f32 0x3CB504F3#32) (Ideal.ofBits .f32 0xFF800000#32)
          (Ideal.ofBits .f32 0x3D372713#32) (Ideal.ofBits .f32 0x3F4C422A#32) (Ideal.ofBits .f32 0x3F800000#32) (Ideal.ofBits .f32 0x3F000000#32)
          x0 x1 x2 x3 x4 x5 x6 x7 := by
  rw [v109_eq, v98_eq, v65_eq, v45_eq, v5_eq, v11_eq, v17_eq, top_mm, top_mm]
  rfl

end Cert.RefValue

end
-- ==== Proof.lean ====
/-
  The certificate of a transformer decoder block computed by six row-banded kernels against its plain reference.

  Both idealized programs compute, over the extended reals, the block of Proof/Spec.lean of their eight arguments
  (hidden states H and the weights Wq Wk Wv Wo Wg Wu Wd):
      Q = H Wq,  K, V = (first 1024 rows of H) Wk, Wv,  P = softmax(s · Q Kᵀ),  X = (P V) Wo + H,
      G = gelu(X Wg) ⊙ (X Wu),  out = G Wd + X.
  The kernel program evaluates each stage in row bands (Proof/Blocks0 … Blocks5: a row of every stage depends only on
  that row of the activations, so the bands written back are the bands of the stage of the whole arrays, and they tile
  the rows), each region reading what the earlier ones left (Proof/Chain.lean), and ends with the block of its
  arguments in the result buffer (Proof/KernelValue.lean over Proof/KernelRun.lean, the bodies' arithmetic in
  Proof/Payloads.lean). The reference projects all 2048 rows for K and V and slices afterwards, transposes K, spells
  the cube and the two residual sums in the other order and carries the sum's zero: the same function
  (Proof/RefValue.lean). Rounding to bf16 and back is the identity on the extended reals, which is also all that the
  eight recorded rewrites of the idealization state. No step uses the finiteness of the inputs: only commutativity
  of + and ·, and the two programs' sums being the same sums.
-/
import proofs.«160021_j42142219108651_2_alg».proof.Defs
import proofs.«160021_j42142219108651_2_alg».proof.Proof.Gen.Kernel
import proofs.«160021_j42142219108651_2_alg».proof.Proof.Gen.Kernel.Frame
import proofs.«160021_j42142219108651_2_alg».proof.Proof.Gen.KernelIdeal
import proofs.«160021_j42142219108651_2_alg».proof.Proof.Gen.KernelIdeal.Frame
import proofs.«160021_j42142219108651_2_alg».proof.Proof.Gen.ReferenceIdeal
import proofs.«160021_j42142219108651_2_alg».proof.Proof.Gen.Pre_finite_inputs
import proofs.«160021_j42142219108651_2_alg».proof.Proof.Gen.ReferenceIdeal.Run
import proofs.«160021_j42142219108651_2_alg».proof.Proof.Gen.ReferenceIdeal.Read
import proofs.«160021_j42142219108651_2_alg».proof.Proof.KernelValue
import proofs.«160021_j42142219108651_2_alg».proof.Proof.Payloads
import proofs.«160021_j42142219108651_2_alg».proof.Proof.RefValue
import Idealize.ShloMosaic.Adequacy
import Idealize.ShloMosaic.Init

noncomputable section

namespace Cert.Proof

open Idealize.ShloMosaic Idealize.SL.Sem

/-- The three programs run, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's eight rewrites: each removes a rounding to bf16 followed by the widening back, the identity on
    the extended reals. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- The six kernel bodies' arithmetic, as stages of the block. -/
theorem payloads : Cert.KernelIdeal.Whole.Payloads (Ideal.ofBits .f32 0x3CB504F3#32) (Ideal.ofBits .f32 0xFF800000#32)
    (Ideal.ofBits .f32 0x3D372713#32) (Ideal.ofBits .f32 0x3F4C422A#32) (Ideal.ofBits .f32 0x3F800000#32) (Ideal.ofBits .f32 0x3F000000#32) :=
  ⟨Cert.Payloads.pay0, Cert.Payloads.pay1k, Cert.Payloads.pay1v, Cert.Payloads.pay2, Cert.Payloads.pay3, Cert.Payloads.pay4,
   Cert.Payloads.pay5⟩

/-- From memories agreeing on the arguments both idealized programs end with the block of the arguments. -/
theorem algebraic : Cert.algebraic_KernelIdeal_ReferenceIdeal := by
  intro m ρ m' ρ' _ hagree
  refine ⟨_, Cert.KernelIdeal.Whole.run_value m ρ payloads, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v109_eq, Cert.RefValue.ref_eq, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
